-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x128 : Shape := ⟨2, ![256, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x128 .f32) (main_arg3 : FVec F S256x128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x128 : Shape := ⟨2, ![256, 128]⟩
abbrev S256x256 : Shape := ⟨2, ![256, 256]⟩
abbrev S4096x128 : Shape := ⟨2, ![4096, 128]⟩
abbrev S512x4096 : Shape := ⟨2, ![512, 4096]⟩
abbrev S512x128 : Shape := ⟨2, ![512, 128]⟩
abbrev S512x256 : Shape := ⟨2, ![512, 256]⟩

abbrev nBuf : Space → Nat
  | .hbm => 8
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S256x128, .f32⟩
  | .hbm, ⟨4, _⟩ => ⟨S256x256, .f32⟩
  | .hbm, ⟨5, _⟩ => ⟨S4096x128, .f32⟩
  | .hbm, ⟨6, _⟩ => ⟨S4096x128, .f32⟩
  | .hbm, ⟨7, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S256x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S4096x256, .f32⟩
  | .local _ .vmem, ⟨9, _⟩ => ⟨S512x128, .f32⟩
  | .local _ .vmem, ⟨10, _⟩ => ⟨S512x128, .f32⟩
  | .local _ .vmem, ⟨11, _⟩ => ⟨S4096x128, .f32⟩
  | .local _ .vmem, ⟨12, _⟩ => ⟨S512x4096, .f32⟩
  | .local _ .vmem, ⟨13, _⟩ => ⟨S512x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S256x128_S256x128_S256x256_d1 : Shape.Concatenates [S256x128, S256x128] S256x256 1
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4096x256_S4096x256 : S4096x256.ShapeCasts S4096x256
  inb_S512x4096_S512x4096_0_0 : ∀ a, (![0, 0] : Fin 2 → Nat) a + S512x4096.size a ≤ S512x4096.size a
  h_S512x4096 : 0 < S512x4096.numel
  slices_S512x256_o0_0_S512x128 : S512x256.Slices ![0, 0] S512x128
  inb_S512x128_S512x128_0_0 : ∀ a, (![0, 0] : Fin 2 → Nat) a + S512x128.size a ≤ S512x128.size a
  h_S512x128 : 0 < S512x128.numel
  slices_S512x256_o0_128_S512x128 : S512x256.Slices ![0, 128] S512x128
  shapeCasts_S512x128_S512x128 : S512x128.ShapeCasts S512x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .f32 = 32 ∨ (Rect.block (s := S4096x4096) S512x4096.size (cc1_transform_2 i) (hinb1_2 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x128 : Shape := ⟨2, ![256, 128]⟩
abbrev S4096x128 : Shape := ⟨2, ![4096, 128]⟩
abbrev S128x4096 : Shape := ⟨2, ![128, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S256x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S128x4096, .f32⟩
  | .hbm, ⟨9, _⟩ => ⟨S4096x4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x128_S128x4096_1_0 : S4096x128.Transposes [1, 0] S128x4096
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x4096_S4096x4096_1_0_0_1_n_n_wf : DotDims.WF S4096x128 S128x4096 S4096x4096 [1] [0] [0] [1] [] []

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.KRegion0.lean ====
/-
  The first kernel region (the encoder): its scratch h (4096 x 256) is filled at the first grid point with the
  product z · wcat and kept; at every point the body multiplies its row strip x (512 x 4096) of adj by h and stores
  the left and right halves (512 x 128 each) of the product into its two output blocks. Stated for any float
  instance and at any contents V of the core's buffers when the region is entered.
-/
import proofs.«112347_g2765958939317_cont_9to1_237_2_alg».proof.Proof.Gen.Kernel.Launch
import proofs.«112347_g2765958939317_cont_9to1_237_2_alg».proof.Proof.Gen.Kernel.Skeleton
import proofs.«112347_g2765958939317_cont_9to1_237_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store takes the whole buffer -/

abbrev r0_A : Rect S512x4096 := Rect.unit (s := S512x4096) ![0, 0] S512x4096.size inb_S512x4096_S512x4096_0_0
abbrev r0_Z : Rect S4096x256 := Rect.unit (s := S4096x256) ![0, 0] S4096x256.size inb_S4096x256_S4096x256_0_0
abbrev r0_W : Rect S256x256 := Rect.unit (s := S256x256) ![0, 0] S256x256.size inb_S256x256_S256x256_0_0
abbrev r0_O : Rect S512x128 := Rect.unit (s := S512x128) ![0, 0] S512x128.size inb_S512x128_S512x128_0_0

/-- What the first point leaves in the scratch: the product of the two resident inputs. -/
def hval (z : Vec F S4096x256 .f32) (w : Vec F S256x256 .f32) : Vec F S4096x256 .f32 :=
  View.canon [⟨r0_Z, k0_pay1 (View.ld z r0_Z) (View.ld w r0_W)⟩]
/-- What a point leaves in the two output blocks, from its strip x and the scratch h. -/
def out0_3 (x : Vec F S512x4096 .f32) (h : Vec F S4096x256 .f32) : Vec F S512x128 .f32 :=
  View.canon [⟨r0_O, k0_pay3 (View.ld x r0_A) (View.ld h r0_Z)⟩]
def out0_4 (x : Vec F S512x4096 .f32) (h : Vec F S4096x256 .f32) : Vec F S512x128 .f32 :=
  View.canon [⟨r0_O, k0_pay4 (View.ld x r0_A) (View.ld h r0_Z)⟩]

theorem cover0_Z (p0 : Vec F S4096x256 .f32) (y : S4096x256.Idx) :
    ∃ pc ∈ ([⟨r0_Z, p0⟩] : List (View.Piece (Elt F) S4096x256 .f32)), y ∈ pc.1.set :=
  View.cover_of_tiled [⟨r0_Z, p0⟩] S4096x256.size (by rfl) y
theorem cover0_O (p0 : Vec F S512x128 .f32) (y : S512x128.Idx) :
    ∃ pc ∈ ([⟨r0_O, p0⟩] : List (View.Piece (Elt F) S512x128 .f32)), y ∈ pc.1.set :=
  View.cover_of_tiled [⟨r0_O, p0⟩] S512x128.size (by rfl) y

/-! ## The body's branch condition -/

/-- The condition of the body's conditional, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The body's triples, one per case -/

set_option maxHeartbeats 2000000 in
/-- At the first point the body fills the scratch and then computes from it. -/
theorem sound_kernel0_A (c : Dev nD) (E : Set ℕ) (i : grid0.Coords)
    (arg1 : Memref sig .tc .vmem S512x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S512x128 .f32) (harg4 : arg4.IsWhole)
    (arg5 : Memref sig .tc .vmem S512x128 .f32) (harg5 : arg5.IsWhole) (arg6 : Memref sig .tc .vmem S4096x256 .f32) (harg6 : arg6.IsWhole)
    (hc0 : cond0_0 i)
    (x : Vec F S512x4096 .f32) (z : Vec F S4096x256 .f32) (w : Vec F S256x256 .f32) (K : PUnit → sProp 𝕄) :
    iprop(owns (c : Thread nD τ) arg1 fullShare x ∗ owns (c : Thread nD τ) arg2 fullShare z ∗ owns (c : Thread nD τ) arg3 fullShare w
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare z ∗ owns (c : Thread nD τ) arg3 fullShare w
            ∗ owns (c : Thread nD τ) arg4 fullShare (out0_3 x (hval z w)) ∗ owns (c : Thread nD τ) arg5 fullShare (out0_4 x (hval z w))
            ∗ owns (c : Thread nD τ) arg6 fullShare (hval z w)) -∗ K ⟨⟩))
      ⊢ wp frame (wpE (defs₀ (F := F)) Variants.none c none) E (cc0__encode_body i arg1 harg1 arg2 harg2 arg3 harg3 arg4 harg4 arg5 harg5 arg6 harg6) K := by
  simp only [cc0__encode_body_eq_skeleton]; unfold cc0__encode_body_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec (disch := first | exact hc0)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.readCov_eq_canon_ld _ _ _ (cover0_Z _)]
    exact View.read_writes_eq_canon _ _ _ (cover0_O _)
  isplitl [H5]
  · iexists _; isplitr
    swap; · iexact H5
    ipureintro
    sl_unfold_run_names
    rw [View.readCov_eq_canon_ld _ _ _ (cover0_Z _)]
    exact View.read_writes_eq_canon _ _ _ (cover0_O _)
  iexists _; isplitr
  swap; · iexact H6
  ipureintro
  exact View.read_writes_eq_canon _ _ _ (cover0_Z _)

set_option maxHeartbeats 2000000 in
/-- At every later point the body computes from the scratch as the first point left it. -/
theorem sound_kernel0_B (c : Dev nD) (E : Set ℕ) (i : grid0.Coords)
    (arg1 : Memref sig .tc .vmem S512x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S512x128 .f32) (harg4 : arg4.IsWhole)
    (arg5 : Memref sig .tc .vmem S512x128 .f32) (harg5 : arg5.IsWhole) (arg6 : Memref sig .tc .vmem S4096x256 .f32) (harg6 : arg6.IsWhole)
    (hc0 : ¬cond0_0 i)
    (x : Vec F S512x4096 .f32) (h : Vec F S4096x256 .f32) (K : PUnit → sProp 𝕄) :
    iprop(owns (c : Thread nD τ) arg1 fullShare x
        ∗ (∃ d, owns (c : Thread nD τ) arg4 fullShare d) ∗ (∃ d, owns (c : Thread nD τ) arg5 fullShare d) ∗ owns (c : Thread nD τ) arg6 fullShare h
        ∗ (iprop(owns (c : Thread nD τ) arg1 fullShare x
            ∗ owns (c : Thread nD τ) arg4 fullShare (out0_3 x h) ∗ owns (c : Thread nD τ) arg5 fullShare (out0_4 x h)
            ∗ owns (c : Thread nD τ) arg6 fullShare h) -∗ K ⟨⟩))
      ⊢ wp frame (wpE (defs₀ (F := F)) Variants.none c none) E (cc0__encode_body i arg1 harg1 arg2 harg2 arg3 harg3 arg4 harg4 arg5 harg5 arg6 harg6) K := by
  simp only [cc0__encode_body_eq_skeleton]; unfold cc0__encode_body_skel
  unfold owns
  iintro ⟨⟨%f1, %hf1, H1⟩, ⟨%d4, %f4, -, H4⟩, ⟨%d5, %f5, -, H5⟩, ⟨%f6, %hf6, H6⟩, Hk⟩
  subst hf1; subst hf6
  sl_exec (disch := first | exact hc0)
  sl_step
  iapply Hk
  isplitl [H1]
  · iexists f1; isplitr; · ipureintro; rfl
    iexact H1
  isplitl [H4]
  · iexists _; isplitr
    swap; · iexact H4
    ipureintro
    exact View.read_writes_eq_canon _ _ _ (cover0_O _)
  isplitl [H5]
  · iexists _; isplitr
    swap; · iexact H5
    ipureintro
    exact View.read_writes_eq_canon _ _ _ (cover0_O _)
  iexists f6; isplitr; · ipureintro; rfl
  iexact H6

/-! ## The pipeline's proof data -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The scratch as a memref. -/
abbrev scM0 : Memref sig .tc .vmem S4096x256 .f32 := Memref.whole cc0_scratch0

/-- What the scratch holds from the first point on: the product of the two resident input blocks (each the whole of
    its array at every point). -/
def hS (c : Dev nD) : Vec F S4096x256 .f32 := hval (iblk0 V c 1 t0_0) (iblk0 V c 2 t0_0)

/-- The core's scoped buffers other than this region's staging buffers and its scratch, each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant with the scratch as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA; rw [scopedRest0_eq]; simp only [scM0, owns_whole]; try rfl

/-- The invariant before position n: before the first point every scoped buffer at anything; afterwards the scratch at
    hS, the others at anything; the generator register at some state throughout. -/
def Phi0 (c : Dev nD) (n : ℕ) : sProp 𝕄 :=
  if n = 0 then Pipeline.ΦA spec0 c
  else iprop((owns (c : Thread nD τ) scM0 fullShare (hS V c) ∗ others0 c) ∗ (∃ r, prngReg c r))

theorem Phi0_zero (c : Dev nD) (n : ℕ) (h : n = 0) : Phi0 V c n = Pipeline.ΦA spec0 c := by
  unfold Phi0; rw [if_pos h]
theorem Phi0_pos (c : Dev nD) (n : ℕ) (h : n ≠ 0) :
    Phi0 V c n = iprop((owns (c : Thread nD τ) scM0 fullShare (hS V c) ∗ others0 c) ∗ (∃ r, prngReg c r)) := by
  unfold Phi0; rw [if_neg h]

/-- The proof data of the encoder's pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (hS V c)
    | ⟨4, _⟩ => out0_4 (iblk0 V c 0 t) (hS V c)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (hS V c) := by dsimp only [dat0]
theorem after0_4 (c : Dev nD) (t : Fin cfg0.N) : (dat0 V c).after 4 t = out0_4 (iblk0 V c 0 t) (hS V c) := by dsimp only [dat0]

theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) : (dat0 V c).Φ t.succ = Phi0 V c (t.val + 1) := by
  dsimp only [dat0]; simp only [Fin.val_succ]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: at the first the invariant hands it the scratch at anything and takes it back filled; at a
    later point it hands the scratch filled and takes it back as it was. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    after0_0, after0_1, after0_2, after0_3, after0_4, Phi_castSucc0, Phi_succ0, Phi0_pos V c (t.val + 1) (Nat.succ_ne_zero _)]
  have hN : t.val < 8 := lt_of_lt_of_eq t.isLt (show cfg0.N = 8 from N_0)
  by_cases h0 : t.val % 8 = 0
  · have hz : t.val = 0 := by omega
    have ht : t = t0_0 := Fin.ext hz
    rw [Phi0_zero V c _ hz, PhiA0_eq]
    subst ht
    unfold hS
    iintro ⟨⟨⟨⟨%ds, HS⟩, Hoth⟩, Hg⟩, Ho, ⟨%d0, H0⟩, ⟨%d1, H1⟩, ⟨%d2, H2⟩, ⟨%d3, H3⟩, ⟨%d4, H4⟩⟩
    iapply (sound_kernel0_A c Set.univ (grid0.coords t0_0) _ _ _ _ _ _ _ _ _ _ _ _ ((hcond0_0 t0_0).mpr h0) (iblk0 V c 0 t0_0) (iblk0 V c 1 t0_0) (iblk0 V c 2 t0_0) _)
    isplitl [H0]; · iexact H0
    isplitl [H1]; · iexact H1
    isplitl [H2]; · iexact H2
    isplitl [H3]; · iexists _; iexact H3
    isplitl [H4]; · iexists _; iexact H4
    isplitl [HS]; · iexists _; iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    rw [Phi0_pos V c _ hz]
    iintro ⟨⟨⟨HS, Hoth⟩, Hg⟩, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ _ _ (fun h => h0 ((hcond0_0 t).mp h)) (iblk0 V c 0 t) (hS V c) _)
    isplitl [H0]; · iexact H0
    isplitl [H3]; · iexists _; iexact H3
    isplitl [H4]; · iexists _; iexact H4
    isplitl [HS]; · iexact HS
    iintro ⟨H0, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

theorem body_obligation0 (c : Dev nD) : BodyObligation (dat0 (F := F) V c) (defs₀ (F := F)) Variants.none () Set.univ := fun t => by
  rw [bigSep_W0, bigSep_W0]
  exact sound_body0 V c t

/-- What the region is handed is the invariant before the first point, -/
theorem hin0 (c : Dev nD) : Pipeline.ΦA spec0 c ⊢ (dat0 V c).Φ 0 := by
  rw [show (dat0 V c).Φ 0 = Phi0 V c 0 from rfl, Phi0_zero V c 0 rfl]
/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 8 := N_0; omega), PhiA0_eq]
  iintro ⟨⟨HS, Hoth⟩, Hg⟩
  isplitl [HS Hoth]
  · isplitl [HS]; · iexists _; iexact HS
    iexact Hoth
  iexact Hg

end Cert.Kernel.Hand

end
-- ==== Proof.KRegion1.lean ====
/-
  The second kernel region (the decoder): at grid point t the body reads its row strip a (512 x 128) of mu and the
  whole of mu, b (4096 x 128), and stores the strip a · bᵀ (512 x 4096) of the reconstruction. Stated here, for
  any float instance and at any contents V of the core's buffers when the region is entered: what the body leaves
  in its output buffer as a function of the two input blocks, the body's triple, and the pipeline's proof data with
  its body obligation. The two input windows read ONE array, each at half the full share.
-/
import proofs.«112347_g2765958939317_cont_9to1_237_2_alg».proof.Proof.Gen.Kernel.Launch
import proofs.«112347_g2765958939317_cont_9to1_237_2_alg».proof.Proof.Gen.Kernel.Skeleton
import proofs.«112347_g2765958939317_cont_9to1_237_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_0 : Rect S512x128 := Rect.unit (s := S512x128) ![0, 0] S512x128.size inb_S512x128_S512x128_0_0
abbrev r1_1 : Rect S4096x128 := Rect.unit (s := S4096x128) ![0, 0] S4096x128.size inb_S4096x128_S4096x128_0_0
abbrev r1_2 : Rect S512x4096 := Rect.unit (s := S512x4096) ![0, 0] S512x4096.size inb_S512x4096_S512x4096_0_0

/-- What the body leaves in the output window's buffer: its one store, of the product of the two loaded blocks. -/
def out1_2 (x0 : Vec F S512x128 .f32) (x1 : Vec F S4096x128 .f32) : Vec F S512x4096 .f32 :=
  View.canon [⟨r1_2, k1_pay1 (View.ld x0 r1_0) (View.ld x1 r1_1)⟩]

/-- The one store covers the buffer. -/
theorem cover1_2 (p0 : Vec F S512x4096 .f32) (y : S512x4096.Idx) :
    ∃ pc ∈ ([⟨r1_2, p0⟩] : List (View.Piece (Elt F) S512x4096 .f32)), y ∈ pc.1.set :=
  View.cover_of_tiled [⟨r1_2, p0⟩] S512x4096.size (by rfl) y

set_option maxHeartbeats 1000000 in
/-- The body on whole staging buffers, the inputs' at contents x0, x1 and the output's at anything, runs to the
    continuation holding the inputs' as they were and the output's at out1_2 x0 x1. -/
theorem sound_kernel1 (c : Dev nD) (E : Set ℕ) (i : grid1.Coords) (arg1 : Memref sig .tc .vmem S512x128 .f32) (harg1 : arg1.IsWhole)
    (arg2 : Memref sig .tc .vmem S4096x128 .f32) (harg2 : arg2.IsWhole) (arg3 : Memref sig .tc .vmem S512x4096 .f32) (harg3 : arg3.IsWhole)
    (x0 : Vec F S512x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__decode_body i arg1 harg1 arg2 harg2 arg3 harg3) K := by
  simp only [cc1__decode_body_eq_skeleton]; unfold cc1__decode_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the decoder's pipeline on core c: the arrays as the region finds them; after the body at point t
    each input's buffer at its block and the output's at out1_2 of the two; the invariant the scoped rest and the
    generator register, untouched; nothing owed; the shared input array held half and half by its two windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The run of the whole program: a host concatenate, the encoder's region, the decoder's region. The buffer contents
  at each boundary are a fold from the launch memory: after the concatenate; after the encoder, its arrays at what its
  write-backs leave; after the decoder, the reconstruction's array at what its write-backs leave. Each region is
  entered from "every unscoped buffer at the boundary's contents" and left at the next boundary's. The decoder reads one
  array through two windows: its full share is split in two halves at the entry and joined again at the exit.
-/
import proofs.«112347_g2765958939317_cont_9to1_237_2_alg».proof.Proof.KRegion0
import proofs.«112347_g2765958939317_cont_9to1_237_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 (c : Dev nD) : Valuation τ sig (Elt F) := fun b => m (c, b)
/-- After the concatenate (the encoder's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At the encoder's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the decoder's exit: the reconstruction's array at what the pipeline leaves, every other buffer as entered. -/
def W3 (c : Dev nD) : Valuation τ sig (Elt F) :=
  Function.update (W2 m c) (Proc.devRef .tc main_v2) ((dat1 (V2 m) c).arrAt 2 cfg1.N)
abbrev V3 : (c : Dev nD) → (b : Ref sig .tc) → Buf (Elt F) ((c : Thread nD τ).loc b) := fun c b => W3 m c b
theorem W3_v2 (c : Dev nD) : V3 m c main_v2 = (dat1 (V2 m) c).arrAt 2 cfg1.N := by
  show W3 m c (Proc.devRef .tc main_v2) = _
  unfold W3; exact Function.update_self ..
theorem W3_of_ne (c : Dev nD) (b : Ref sig .tc) (hb : b ≠ main_v2) : V3 m c b = V2 m c b := by
  show W3 m c (Proc.devRef .tc b) = W2 m c (Proc.devRef .tc b)
  unfold W3; exact Function.update_of_ne (StableHlo.devRef_ne_of_ne hb) ..

/-! ## The shared array of the decoder: its share split at the entry, joined at the exit -/

section Shared
variable (V : (c : Dev nD) → (b : Ref sig .tc) → Buf (Elt F) ((c : Thread nD τ).loc b))

/-- The decoder's arrays, window by window: the shared array at its two half shares, the output at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1_0) ↦{fullShare.left} G 0) ∗ (((c : Thread nD τ).loc main_v1_0) ↦{fullShare.right} G 1)
          ∗ (((c : Thread nD τ).loc main_v2) ↦{fullShare} G 2)) := by
  unfold Dat.arrays; rw [bigSep_W1]
  rw [(arr_whole1 0).set_eq_univ, (arr_whole1 2).set_eq_univ]
  rfl

/-- The two buffers behind the decoder's three windows. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v1_0) ↦{fullShare} V' main_v1_0) ∗ (((c : Thread nD τ).loc main_v2) ↦{fullShare} V' main_v2)) := by
  unfold Pipeline.arrBufs; exact bigSep_eq_bigSepL_of_eq [main_v1_0, main_v2] (by decide) (by decide) _

theorem unscopedBufs_split1 (c : Dev nD) (V' : (b : Ref sig .tc) → Buf (Elt F) ((c : Thread nD τ).loc b)) :
    (unscopedBufs (Ix := Unit) (Name := ℕ) (U := UR sig nD τ) (Lvl := ℕ) c V' : sProp 𝕄)
      = iprop((Pipeline.arrBufs spec1 c V' : sProp 𝕄) ∗ Pipeline.unscopedRest spec1 c V') :=
  Pipeline.unscopedBufs_split₀ cfgs (1 : Fin 2) winFacts₀1.arr_unscoped c V'

/-- ENTRY: the core's unscoped buffers at V are the decoder's arrays at the entry contents and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [unscopedBufs_split1, arrBufs1_eq, arrays1_eq]
  iintro ⟨⟨H1, H2⟩, Hr⟩
  ihave H1' := (pointsTo_share (PosShare.mem_left_op_right fullShare)).1 $$ H1
  icases H1' with ⟨Ha, Hb⟩
  isplitr [Hr]
  · isplitl [Ha]; · iexact Ha
    isplitl [Hb]; · iexact Hb
    iexact H2
  iexact Hr

/-- EXIT: the decoder's arrays at their final contents and the rest at V are the core's unscoped buffers at any
    valuation that has the output array at its final contents and agrees with V elsewhere. -/
theorem exit1 (c : Dev nD) (V' : (b : Ref sig .tc) → Buf (Elt F) ((c : Thread nD τ).loc b))
    (hv2 : V' main_v2 = (dat1 V c).arrAt 2 cfg1.N) (hrest : ∀ b, b ≠ main_v2 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  rw [unscopedBufs_split1, arrBufs1_eq, arrays1_eq, hv2, hrest main_v1_0 (by decide),
    (dat1 V c).arrAt_in 0 rfl, (dat1 V c).arrAt_in 1 rfl]
  refine sep_mono ?_ (Entails.of_eq ?_)
  · iintro ⟨Ha, Hb, H2⟩
    isplitl [Ha Hb]
    · iapply (pointsTo_share (PosShare.mem_left_op_right fullShare)).2
      isplitl [Ha]; · iexact Ha
      iexact Hb
    iexact H2
  · unfold Pipeline.unscopedRest
    exact bigSep_congr fun b hb => by
      rw [hrest b (fun e => (Finset.mem_sdiff.mp hb).2 (Finset.mem_image.mpr ⟨2, Finset.mem_univ _, e ▸ rfl⟩))]

end Shared

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The encoder's region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder's region: entered from every unscoped buffer at W2, left at W3. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs (Ix := Unit) (Name := ℕ) (U := UR sig nD τ) (Lvl := ℕ) c (V2 m c) : sProp 𝕄)
        ⊢ iprop((pdats m 1 c).arrays ((pdats m 1 c).arrAt · 0) ∗ Pipeline.unscopedRest spec1 c (V2 m c)) := entry1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs (Ix := Unit) (Name := ℕ) (U := UR sig nD τ) (Lvl := ℕ) c (V3 m c) : sProp 𝕄) :=
      exit1 (V2 m) c (V3 m c) (W3_v2 m c) (fun b hb => W3_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer at the last boundary's contents W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.KRead.lean ====
/-
  The last boundary's contents read at each buffer of interest: an argument array holds its launch contents (no host
  operation writes one, a region only reads one through an input window or leaves it alone); the two encoder outputs
  hold what the encoder's write-backs leave, the reconstruction what the decoder's leave. With the run, this is the
  frame claim's post, at any float instance.
-/
import proofs.«112347_g2765958939317_cont_9to1_237_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The concatenate writes its result buffer only. -/
theorem W1_of (c : Dev nD) (r : Ref sig .tc) (h : r ≠ main_v0) : W1 m c (Proc.devRef .tc r) = m ((c : Thread nD τ).loc r) :=
  StableHlo.after_of_forall_not_mem (b := Proc.devRef .tc r) _ _ (List.forall_iff_forall_mem.mp (by
    simp only [hostOps0, List.Forall, StableHlo.binary_writes, Finset.mem_singleton]
    exact StableHlo.devRef_ne_of_ne h))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 1).trans (((dat0 (V1 m) c).arrAt_in 1 rfl _).trans (A_eq0 (V1 m) c 1))
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-- The encoder's two outputs and the reconstruction at the last boundary. -/
theorem W3_main_v1_0 (c : Dev nD) : W3 m c (Proc.devRef .tc main_v1_0) = (dat0 (V1 m) c).arrAt 3 cfg0.N :=
  (W3_of_ne m c main_v1_0 (by decide)).trans (W2_arr m c 3)
theorem W3_main_v1_1 (c : Dev nD) : W3 m c (Proc.devRef .tc main_v1_1) = (dat0 (V1 m) c).arrAt 4 cfg0.N :=
  (W3_of_ne m c main_v1_1 (by decide)).trans (W2_arr m c 4)
theorem W3_main_v2 (c : Dev nD) : W3 m c (Proc.devRef .tc main_v2) = (dat1 (V2 m) c).arrAt 2 cfg1.N := W3_v2 m c

/-- What the encoder is entered with. -/
theorem V1_main_arg0 (c : Dev nD) : V1 m c main_arg0 = m ((c : Thread nD τ).loc main_arg0) := W1_of m c main_arg0 (by decide)
theorem V1_main_arg1 (c : Dev nD) : V1 m c main_arg1 = m ((c : Thread nD τ).loc main_arg1) := W1_of m c main_arg1 (by decide)
theorem V2_main_v1_0 (c : Dev nD) : V2 m c main_v1_0 = (dat0 (V1 m) c).arrAt 3 cfg0.N := W2_arr m c 3

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Hand

end
-- ==== Proof.KIRegion0.lean ====
/-
  The first kernel region (the encoder): its scratch h (4096 x 256) is filled at the first grid point with the
  product z · wcat and kept; at every point the body multiplies its row strip x (512 x 4096) of adj by h and stores
  the left and right halves (512 x 128 each) of the product into its two output blocks. Stated for any float
  instance and at any contents V of the core's buffers when the region is entered.
-/
import proofs.«112347_g2765958939317_cont_9to1_237_2_alg».proof.Proof.Gen.KernelIdeal.Launch
import proofs.«112347_g2765958939317_cont_9to1_237_2_alg».proof.Proof.Gen.KernelIdeal.Skeleton
import proofs.«112347_g2765958939317_cont_9to1_237_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store takes the whole buffer -/

abbrev r0_A : Rect S512x4096 := Rect.unit (s := S512x4096) ![0, 0] S512x4096.size inb_S512x4096_S512x4096_0_0
abbrev r0_Z : Rect S4096x256 := Rect.unit (s := S4096x256) ![0, 0] S4096x256.size inb_S4096x256_S4096x256_0_0
abbrev r0_W : Rect S256x256 := Rect.unit (s := S256x256) ![0, 0] S256x256.size inb_S256x256_S256x256_0_0
abbrev r0_O : Rect S512x128 := Rect.unit (s := S512x128) ![0, 0] S512x128.size inb_S512x128_S512x128_0_0

/-- What the first point leaves in the scratch: the product of the two resident inputs. -/
def hval (z : Vec F S4096x256 .f32) (w : Vec F S256x256 .f32) : Vec F S4096x256 .f32 :=
  View.canon [⟨r0_Z, k0_pay1 (View.ld z r0_Z) (View.ld w r0_W)⟩]
/-- What a point leaves in the two output blocks, from its strip x and the scratch h. -/
def out0_3 (x : Vec F S512x4096 .f32) (h : Vec F S4096x256 .f32) : Vec F S512x128 .f32 :=
  View.canon [⟨r0_O, k0_pay3 (View.ld x r0_A) (View.ld h r0_Z)⟩]
def out0_4 (x : Vec F S512x4096 .f32) (h : Vec F S4096x256 .f32) : Vec F S512x128 .f32 :=
  View.canon [⟨r0_O, k0_pay4 (View.ld x r0_A) (View.ld h r0_Z)⟩]

theorem cover0_Z (p0 : Vec F S4096x256 .f32) (y : S4096x256.Idx) :
    ∃ pc ∈ ([⟨r0_Z, p0⟩] : List (View.Piece (Elt F) S4096x256 .f32)), y ∈ pc.1.set :=
  View.cover_of_tiled [⟨r0_Z, p0⟩] S4096x256.size (by rfl) y
theorem cover0_O (p0 : Vec F S512x128 .f32) (y : S512x128.Idx) :
    ∃ pc ∈ ([⟨r0_O, p0⟩] : List (View.Piece (Elt F) S512x128 .f32)), y ∈ pc.1.set :=
  View.cover_of_tiled [⟨r0_O, p0⟩] S512x128.size (by rfl) y

/-! ## The body's branch condition -/

/-- The condition of the body's conditional, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The body's triples, one per case -/

set_option maxHeartbeats 2000000 in
/-- At the first point the body fills the scratch and then computes from it. -/
theorem sound_kernel0_A (c : Dev nD) (E : Set ℕ) (i : grid0.Coords)
    (arg1 : Memref sig .tc .vmem S512x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S512x128 .f32) (harg4 : arg4.IsWhole)
    (arg5 : Memref sig .tc .vmem S512x128 .f32) (harg5 : arg5.IsWhole) (arg6 : Memref sig .tc .vmem S4096x256 .f32) (harg6 : arg6.IsWhole)
    (hc0 : cond0_0 i)
    (x : Vec F S512x4096 .f32) (z : Vec F S4096x256 .f32) (w : Vec F S256x256 .f32) (K : PUnit → sProp 𝕄) :
    iprop(owns (c : Thread nD τ) arg1 fullShare x ∗ owns (c : Thread nD τ) arg2 fullShare z ∗ owns (c : Thread nD τ) arg3 fullShare w
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare z ∗ owns (c : Thread nD τ) arg3 fullShare w
            ∗ owns (c : Thread nD τ) arg4 fullShare (out0_3 x (hval z w)) ∗ owns (c : Thread nD τ) arg5 fullShare (out0_4 x (hval z w))
            ∗ owns (c : Thread nD τ) arg6 fullShare (hval z w)) -∗ K ⟨⟩))
      ⊢ wp frame (wpE (defs₀ (F := F)) Variants.none c none) E (cc0__encode_body i arg1 harg1 arg2 harg2 arg3 harg3 arg4 harg4 arg5 harg5 arg6 harg6) K := by
  simp only [cc0__encode_body_eq_skeleton]; unfold cc0__encode_body_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec (disch := first | exact hc0)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.readCov_eq_canon_ld _ _ _ (cover0_Z _)]
    exact View.read_writes_eq_canon _ _ _ (cover0_O _)
  isplitl [H5]
  · iexists _; isplitr
    swap; · iexact H5
    ipureintro
    sl_unfold_run_names
    rw [View.readCov_eq_canon_ld _ _ _ (cover0_Z _)]
    exact View.read_writes_eq_canon _ _ _ (cover0_O _)
  iexists _; isplitr
  swap; · iexact H6
  ipureintro
  exact View.read_writes_eq_canon _ _ _ (cover0_Z _)

set_option maxHeartbeats 2000000 in
/-- At every later point the body computes from the scratch as the first point left it. -/
theorem sound_kernel0_B (c : Dev nD) (E : Set ℕ) (i : grid0.Coords)
    (arg1 : Memref sig .tc .vmem S512x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S512x128 .f32) (harg4 : arg4.IsWhole)
    (arg5 : Memref sig .tc .vmem S512x128 .f32) (harg5 : arg5.IsWhole) (arg6 : Memref sig .tc .vmem S4096x256 .f32) (harg6 : arg6.IsWhole)
    (hc0 : ¬cond0_0 i)
    (x : Vec F S512x4096 .f32) (h : Vec F S4096x256 .f32) (K : PUnit → sProp 𝕄) :
    iprop(owns (c : Thread nD τ) arg1 fullShare x
        ∗ (∃ d, owns (c : Thread nD τ) arg4 fullShare d) ∗ (∃ d, owns (c : Thread nD τ) arg5 fullShare d) ∗ owns (c : Thread nD τ) arg6 fullShare h
        ∗ (iprop(owns (c : Thread nD τ) arg1 fullShare x
            ∗ owns (c : Thread nD τ) arg4 fullShare (out0_3 x h) ∗ owns (c : Thread nD τ) arg5 fullShare (out0_4 x h)
            ∗ owns (c : Thread nD τ) arg6 fullShare h) -∗ K ⟨⟩))
      ⊢ wp frame (wpE (defs₀ (F := F)) Variants.none c none) E (cc0__encode_body i arg1 harg1 arg2 harg2 arg3 harg3 arg4 harg4 arg5 harg5 arg6 harg6) K := by
  simp only [cc0__encode_body_eq_skeleton]; unfold cc0__encode_body_skel
  unfold owns
  iintro ⟨⟨%f1, %hf1, H1⟩, ⟨%d4, %f4, -, H4⟩, ⟨%d5, %f5, -, H5⟩, ⟨%f6, %hf6, H6⟩, Hk⟩
  subst hf1; subst hf6
  sl_exec (disch := first | exact hc0)
  sl_step
  iapply Hk
  isplitl [H1]
  · iexists f1; isplitr; · ipureintro; rfl
    iexact H1
  isplitl [H4]
  · iexists _; isplitr
    swap; · iexact H4
    ipureintro
    exact View.read_writes_eq_canon _ _ _ (cover0_O _)
  isplitl [H5]
  · iexists _; isplitr
    swap; · iexact H5
    ipureintro
    exact View.read_writes_eq_canon _ _ _ (cover0_O _)
  iexists f6; isplitr; · ipureintro; rfl
  iexact H6

/-! ## The pipeline's proof data -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The scratch as a memref. -/
abbrev scM0 : Memref sig .tc .vmem S4096x256 .f32 := Memref.whole cc0_scratch0

/-- What the scratch holds from the first point on: the product of the two resident input blocks (each the whole of
    its array at every point). -/
def hS (c : Dev nD) : Vec F S4096x256 .f32 := hval (iblk0 V c 1 t0_0) (iblk0 V c 2 t0_0)

/-- The core's scoped buffers other than this region's staging buffers and its scratch, each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant with the scratch as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA; rw [scopedRest0_eq]; simp only [scM0, owns_whole]; try rfl

/-- The invariant before position n: before the first point every scoped buffer at anything; afterwards the scratch at
    hS, the others at anything; the generator register at some state throughout. -/
def Phi0 (c : Dev nD) (n : ℕ) : sProp 𝕄 :=
  if n = 0 then Pipeline.ΦA spec0 c
  else iprop((owns (c : Thread nD τ) scM0 fullShare (hS V c) ∗ others0 c) ∗ (∃ r, prngReg c r))

theorem Phi0_zero (c : Dev nD) (n : ℕ) (h : n = 0) : Phi0 V c n = Pipeline.ΦA spec0 c := by
  unfold Phi0; rw [if_pos h]
theorem Phi0_pos (c : Dev nD) (n : ℕ) (h : n ≠ 0) :
    Phi0 V c n = iprop((owns (c : Thread nD τ) scM0 fullShare (hS V c) ∗ others0 c) ∗ (∃ r, prngReg c r)) := by
  unfold Phi0; rw [if_neg h]

/-- The proof data of the encoder's pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (hS V c)
    | ⟨4, _⟩ => out0_4 (iblk0 V c 0 t) (hS V c)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (hS V c) := by dsimp only [dat0]
theorem after0_4 (c : Dev nD) (t : Fin cfg0.N) : (dat0 V c).after 4 t = out0_4 (iblk0 V c 0 t) (hS V c) := by dsimp only [dat0]

theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) : (dat0 V c).Φ t.succ = Phi0 V c (t.val + 1) := by
  dsimp only [dat0]; simp only [Fin.val_succ]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: at the first the invariant hands it the scratch at anything and takes it back filled; at a
    later point it hands the scratch filled and takes it back as it was. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    after0_0, after0_1, after0_2, after0_3, after0_4, Phi_castSucc0, Phi_succ0, Phi0_pos V c (t.val + 1) (Nat.succ_ne_zero _)]
  have hN : t.val < 8 := lt_of_lt_of_eq t.isLt (show cfg0.N = 8 from N_0)
  by_cases h0 : t.val % 8 = 0
  · have hz : t.val = 0 := by omega
    have ht : t = t0_0 := Fin.ext hz
    rw [Phi0_zero V c _ hz, PhiA0_eq]
    subst ht
    unfold hS
    iintro ⟨⟨⟨⟨%ds, HS⟩, Hoth⟩, Hg⟩, Ho, ⟨%d0, H0⟩, ⟨%d1, H1⟩, ⟨%d2, H2⟩, ⟨%d3, H3⟩, ⟨%d4, H4⟩⟩
    iapply (sound_kernel0_A c Set.univ (grid0.coords t0_0) _ _ _ _ _ _ _ _ _ _ _ _ ((hcond0_0 t0_0).mpr h0) (iblk0 V c 0 t0_0) (iblk0 V c 1 t0_0) (iblk0 V c 2 t0_0) _)
    isplitl [H0]; · iexact H0
    isplitl [H1]; · iexact H1
    isplitl [H2]; · iexact H2
    isplitl [H3]; · iexists _; iexact H3
    isplitl [H4]; · iexists _; iexact H4
    isplitl [HS]; · iexists _; iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    rw [Phi0_pos V c _ hz]
    iintro ⟨⟨⟨HS, Hoth⟩, Hg⟩, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ _ _ (fun h => h0 ((hcond0_0 t).mp h)) (iblk0 V c 0 t) (hS V c) _)
    isplitl [H0]; · iexact H0
    isplitl [H3]; · iexists _; iexact H3
    isplitl [H4]; · iexists _; iexact H4
    isplitl [HS]; · iexact HS
    iintro ⟨H0, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

theorem body_obligation0 (c : Dev nD) : BodyObligation (dat0 (F := F) V c) (defs₀ (F := F)) Variants.none () Set.univ := fun t => by
  rw [bigSep_W0, bigSep_W0]
  exact sound_body0 V c t

/-- What the region is handed is the invariant before the first point, -/
theorem hin0 (c : Dev nD) : Pipeline.ΦA spec0 c ⊢ (dat0 V c).Φ 0 := by
  rw [show (dat0 V c).Φ 0 = Phi0 V c 0 from rfl, Phi0_zero V c 0 rfl]
/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 8 := N_0; omega), PhiA0_eq]
  iintro ⟨⟨HS, Hoth⟩, Hg⟩
  isplitl [HS Hoth]
  · isplitl [HS]; · iexists _; iexact HS
    iexact Hoth
  iexact Hg

end Cert.KernelIdeal.Hand

end
-- ==== Proof.KIRegion1.lean ====
/-
  The second kernel region (the decoder): at grid point t the body reads its row strip a (512 x 128) of mu and the
  whole of mu, b (4096 x 128), and stores the strip a · bᵀ (512 x 4096) of the reconstruction. Stated here, for
  any float instance and at any contents V of the core's buffers when the region is entered: what the body leaves
  in its output buffer as a function of the two input blocks, the body's triple, and the pipeline's proof data with
  its body obligation. The two input windows read ONE array, each at half the full share.
-/
import proofs.«112347_g2765958939317_cont_9to1_237_2_alg».proof.Proof.Gen.KernelIdeal.Launch
import proofs.«112347_g2765958939317_cont_9to1_237_2_alg».proof.Proof.Gen.KernelIdeal.Skeleton
import proofs.«112347_g2765958939317_cont_9to1_237_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_0 : Rect S512x128 := Rect.unit (s := S512x128) ![0, 0] S512x128.size inb_S512x128_S512x128_0_0
abbrev r1_1 : Rect S4096x128 := Rect.unit (s := S4096x128) ![0, 0] S4096x128.size inb_S4096x128_S4096x128_0_0
abbrev r1_2 : Rect S512x4096 := Rect.unit (s := S512x4096) ![0, 0] S512x4096.size inb_S512x4096_S512x4096_0_0

/-- What the body leaves in the output window's buffer: its one store, of the product of the two loaded blocks. -/
def out1_2 (x0 : Vec F S512x128 .f32) (x1 : Vec F S4096x128 .f32) : Vec F S512x4096 .f32 :=
  View.canon [⟨r1_2, k1_pay1 (View.ld x0 r1_0) (View.ld x1 r1_1)⟩]

/-- The one store covers the buffer. -/
theorem cover1_2 (p0 : Vec F S512x4096 .f32) (y : S512x4096.Idx) :
    ∃ pc ∈ ([⟨r1_2, p0⟩] : List (View.Piece (Elt F) S512x4096 .f32)), y ∈ pc.1.set :=
  View.cover_of_tiled [⟨r1_2, p0⟩] S512x4096.size (by rfl) y

set_option maxHeartbeats 1000000 in
/-- The body on whole staging buffers, the inputs' at contents x0, x1 and the output's at anything, runs to the
    continuation holding the inputs' as they were and the output's at out1_2 x0 x1. -/
theorem sound_kernel1 (c : Dev nD) (E : Set ℕ) (i : grid1.Coords) (arg1 : Memref sig .tc .vmem S512x128 .f32) (harg1 : arg1.IsWhole)
    (arg2 : Memref sig .tc .vmem S4096x128 .f32) (harg2 : arg2.IsWhole) (arg3 : Memref sig .tc .vmem S512x4096 .f32) (harg3 : arg3.IsWhole)
    (x0 : Vec F S512x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__decode_body i arg1 harg1 arg2 harg2 arg3 harg3) K := by
  simp only [cc1__decode_body_eq_skeleton]; unfold cc1__decode_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the decoder's pipeline on core c: the arrays as the region finds them; after the body at point t
    each input's buffer at its block and the output's at out1_2 of the two; the invariant the scoped rest and the
    generator register, untouched; nothing owed; the shared input array held half and half by its two windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The run of the whole program: a host concatenate, the encoder's region, the decoder's region. The buffer contents
  at each boundary are a fold from the launch memory: after the concatenate; after the encoder, its arrays at what its
  write-backs leave; after the decoder, the reconstruction's array at what its write-backs leave. Each region is
  entered from "every unscoped buffer at the boundary's contents" and left at the next boundary's. The decoder reads one
  array through two windows: its full share is split in two halves at the entry and joined again at the exit.
-/
import proofs.«112347_g2765958939317_cont_9to1_237_2_alg».proof.Proof.KIRegion0
import proofs.«112347_g2765958939317_cont_9to1_237_2_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 (c : Dev nD) : Valuation τ sig (Elt F) := fun b => m (c, b)
/-- After the concatenate (the encoder's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At the encoder's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the decoder's exit: the reconstruction's array at what the pipeline leaves, every other buffer as entered. -/
def W3 (c : Dev nD) : Valuation τ sig (Elt F) :=
  Function.update (W2 m c) (Proc.devRef .tc main_v2) ((dat1 (V2 m) c).arrAt 2 cfg1.N)
abbrev V3 : (c : Dev nD) → (b : Ref sig .tc) → Buf (Elt F) ((c : Thread nD τ).loc b) := fun c b => W3 m c b
theorem W3_v2 (c : Dev nD) : V3 m c main_v2 = (dat1 (V2 m) c).arrAt 2 cfg1.N := by
  show W3 m c (Proc.devRef .tc main_v2) = _
  unfold W3; exact Function.update_self ..
theorem W3_of_ne (c : Dev nD) (b : Ref sig .tc) (hb : b ≠ main_v2) : V3 m c b = V2 m c b := by
  show W3 m c (Proc.devRef .tc b) = W2 m c (Proc.devRef .tc b)
  unfold W3; exact Function.update_of_ne (StableHlo.devRef_ne_of_ne hb) ..

/-! ## The shared array of the decoder: its share split at the entry, joined at the exit -/

section Shared
variable (V : (c : Dev nD) → (b : Ref sig .tc) → Buf (Elt F) ((c : Thread nD τ).loc b))

/-- The decoder's arrays, window by window: the shared array at its two half shares, the output at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1_0) ↦{fullShare.left} G 0) ∗ (((c : Thread nD τ).loc main_v1_0) ↦{fullShare.right} G 1)
          ∗ (((c : Thread nD τ).loc main_v2) ↦{fullShare} G 2)) := by
  unfold Dat.arrays; rw [bigSep_W1]
  rw [(arr_whole1 0).set_eq_univ, (arr_whole1 2).set_eq_univ]
  rfl

/-- The two buffers behind the decoder's three windows. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v1_0) ↦{fullShare} V' main_v1_0) ∗ (((c : Thread nD τ).loc main_v2) ↦{fullShare} V' main_v2)) := by
  unfold Pipeline.arrBufs; exact bigSep_eq_bigSepL_of_eq [main_v1_0, main_v2] (by decide) (by decide) _

theorem unscopedBufs_split1 (c : Dev nD) (V' : (b : Ref sig .tc) → Buf (Elt F) ((c : Thread nD τ).loc b)) :
    (unscopedBufs (Ix := Unit) (Name := ℕ) (U := UR sig nD τ) (Lvl := ℕ) c V' : sProp 𝕄)
      = iprop((Pipeline.arrBufs spec1 c V' : sProp 𝕄) ∗ Pipeline.unscopedRest spec1 c V') :=
  Pipeline.unscopedBufs_split₀ cfgs (1 : Fin 2) winFacts₀1.arr_unscoped c V'

/-- ENTRY: the core's unscoped buffers at V are the decoder's arrays at the entry contents and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [unscopedBufs_split1, arrBufs1_eq, arrays1_eq]
  iintro ⟨⟨H1, H2⟩, Hr⟩
  ihave H1' := (pointsTo_share (PosShare.mem_left_op_right fullShare)).1 $$ H1
  icases H1' with ⟨Ha, Hb⟩
  isplitr [Hr]
  · isplitl [Ha]; · iexact Ha
    isplitl [Hb]; · iexact Hb
    iexact H2
  iexact Hr

/-- EXIT: the decoder's arrays at their final contents and the rest at V are the core's unscoped buffers at any
    valuation that has the output array at its final contents and agrees with V elsewhere. -/
theorem exit1 (c : Dev nD) (V' : (b : Ref sig .tc) → Buf (Elt F) ((c : Thread nD τ).loc b))
    (hv2 : V' main_v2 = (dat1 V c).arrAt 2 cfg1.N) (hrest : ∀ b, b ≠ main_v2 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  rw [unscopedBufs_split1, arrBufs1_eq, arrays1_eq, hv2, hrest main_v1_0 (by decide),
    (dat1 V c).arrAt_in 0 rfl, (dat1 V c).arrAt_in 1 rfl]
  refine sep_mono ?_ (Entails.of_eq ?_)
  · iintro ⟨Ha, Hb, H2⟩
    isplitl [Ha Hb]
    · iapply (pointsTo_share (PosShare.mem_left_op_right fullShare)).2
      isplitl [Ha]; · iexact Ha
      iexact Hb
    iexact H2
  · unfold Pipeline.unscopedRest
    exact bigSep_congr fun b hb => by
      rw [hrest b (fun e => (Finset.mem_sdiff.mp hb).2 (Finset.mem_image.mpr ⟨2, Finset.mem_univ _, e ▸ rfl⟩))]

end Shared

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The encoder's region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder's region: entered from every unscoped buffer at W2, left at W3. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs (Ix := Unit) (Name := ℕ) (U := UR sig nD τ) (Lvl := ℕ) c (V2 m c) : sProp 𝕄)
        ⊢ iprop((pdats m 1 c).arrays ((pdats m 1 c).arrAt · 0) ∗ Pipeline.unscopedRest spec1 c (V2 m c)) := entry1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs (Ix := Unit) (Name := ℕ) (U := UR sig nD τ) (Lvl := ℕ) c (V3 m c) : sProp 𝕄) :=
      exit1 (V2 m) c (V3 m c) (W3_v2 m c) (fun b hb => W3_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer at the last boundary's contents W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.KIRead.lean ====
/-
  The last boundary's contents read at each buffer of interest: an argument array holds its launch contents (no host
  operation writes one, a region only reads one through an input window or leaves it alone); the two encoder outputs
  hold what the encoder's write-backs leave, the reconstruction what the decoder's leave. With the run, this is the
  frame claim's post, at any float instance.
-/
import proofs.«112347_g2765958939317_cont_9to1_237_2_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The concatenate writes its result buffer only. -/
theorem W1_of (c : Dev nD) (r : Ref sig .tc) (h : r ≠ main_v0) : W1 m c (Proc.devRef .tc r) = m ((c : Thread nD τ).loc r) :=
  StableHlo.after_of_forall_not_mem (b := Proc.devRef .tc r) _ _ (List.forall_iff_forall_mem.mp (by
    simp only [hostOps0, List.Forall, StableHlo.binary_writes, Finset.mem_singleton]
    exact StableHlo.devRef_ne_of_ne h))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 1).trans (((dat0 (V1 m) c).arrAt_in 1 rfl _).trans (A_eq0 (V1 m) c 1))
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-- The encoder's two outputs and the reconstruction at the last boundary. -/
theorem W3_main_v1_0 (c : Dev nD) : W3 m c (Proc.devRef .tc main_v1_0) = (dat0 (V1 m) c).arrAt 3 cfg0.N :=
  (W3_of_ne m c main_v1_0 (by decide)).trans (W2_arr m c 3)
theorem W3_main_v1_1 (c : Dev nD) : W3 m c (Proc.devRef .tc main_v1_1) = (dat0 (V1 m) c).arrAt 4 cfg0.N :=
  (W3_of_ne m c main_v1_1 (by decide)).trans (W2_arr m c 4)
theorem W3_main_v2 (c : Dev nD) : W3 m c (Proc.devRef .tc main_v2) = (dat1 (V2 m) c).arrAt 2 cfg1.N := W3_v2 m c

/-- What the encoder is entered with. -/
theorem V1_main_arg0 (c : Dev nD) : V1 m c main_arg0 = m ((c : Thread nD τ).loc main_arg0) := W1_of m c main_arg0 (by decide)
theorem V1_main_arg1 (c : Dev nD) : V1 m c main_arg1 = m ((c : Thread nD τ).loc main_arg1) := W1_of m c main_arg1 (by decide)
theorem V2_main_v1_0 (c : Dev nD) : V2 m c main_v1_0 = (dat0 (V1 m) c).arrAt 3 cfg0.N := W2_arr m c 3

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.PayH.lean ====
import proofs.«112347_g2765958939317_cont_9to1_237_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Bridge

open Cert.KernelIdeal Cert.KernelIdeal.Gen Idealize.ShloMosaic Idealize.ShloMosaic.ValueIdx Idealize.SL.Sem

/-! # The hidden features H = z · [W2 | W3] read at an index

The first payload of the encoder body is a plain [4096,256] × [256,256] product into the zero
accumulator. At the extended reals it is, entry by entry, the finite sum of the products along the
contracted axis. -/

/-- Row coordinate of the left operand's index: the result's row. -/
theorem h_lhs0 (j : S4096x256.Idx) (q : dot_S4096x256_S256x256_S4096x256_1_0_0_1_n_n.contr.Idx) :
    (dot_S4096x256_S256x256_S4096x256_1_0_0_1_n_n.lhsIdx j q 0).val = (j 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- Column coordinate of the left operand's index: the contraction position. -/
theorem h_lhs1 (j : S4096x256.Idx) (q : dot_S4096x256_S256x256_S4096x256_1_0_0_1_n_n.contr.Idx) :
    (dot_S4096x256_S256x256_S4096x256_1_0_0_1_n_n.lhsIdx j q 1).val = (q ⟨0, by decide⟩).val :=
  dot_S4096x256_S256x256_S4096x256_1_0_0_1_n_n.lhsIdx_val_of_single rfl j q
/-- Contracted coordinate of the right operand's index: the contraction position. -/
theorem h_rhs0 (j : S4096x256.Idx) (q : dot_S4096x256_S256x256_S4096x256_1_0_0_1_n_n.contr.Idx) :
    (dot_S4096x256_S256x256_S4096x256_1_0_0_1_n_n.rhsIdx j q 0).val = (q ⟨0, by decide⟩).val :=
  dot_S4096x256_S256x256_S4096x256_1_0_0_1_n_n.rhsIdx_val_of_single rfl j q
/-- Free coordinate of the right operand's index: the result's column. -/
theorem h_rhs1 (j : S4096x256.Idx) (q : dot_S4096x256_S256x256_S4096x256_1_0_0_1_n_n.contr.Idx) :
    (dot_S4096x256_S256x256_S4096x256_1_0_0_1_n_n.rhsIdx j q 1).val = (j 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Entry (k, j) of z · w is the sum over d of z[k,d] * w[d,j]. -/
theorem pay1_apply (z : FVec Ideal S4096x256 .f32) (w : FVec Ideal S256x256 .f32) (k : Fin 4096) (j : Fin 256) :
    k0_pay1 (F := Ideal) z w (ix2 k j) = ∑ d : Fin 256, z (ix2 k d) * w (ix2 d j) := by
  unfold k0_pay1
  simp only [shapeCast_self, matmul]
  rw [Ideal.matmul_constant_zero_apply, ← Equiv.sum_comp (contrEquiv1 dot_S4096x256_S256x256_S4096x256_1_0_0_1_n_n 256 rfl rfl).symm]
  refine Finset.sum_congr rfl fun d _ => ?_
  have hd := contrEquiv1_symm_val dot_S4096x256_S256x256_S4096x256_1_0_0_1_n_n 256 rfl rfl d
  have el : dot_S4096x256_S256x256_S4096x256_1_0_0_1_n_n.lhsIdx (ix2 k j) ((contrEquiv1 dot_S4096x256_S256x256_S4096x256_1_0_0_1_n_n 256 rfl rfl).symm d) = ix2 k d := funext fun a => Fin.ext (by
    match a with
    | ⟨0, _⟩ => exact h_lhs0 _ _
    | ⟨1, _⟩ => exact (h_lhs1 _ _).trans hd)
  have er : dot_S4096x256_S256x256_S4096x256_1_0_0_1_n_n.rhsIdx (ix2 k j) ((contrEquiv1 dot_S4096x256_S256x256_S4096x256_1_0_0_1_n_n 256 rfl rfl).symm d) = ix2 d j := funext fun a => Fin.ext (by
    match a with
    | ⟨0, _⟩ => exact (h_rhs0 _ _).trans hd
    | ⟨1, _⟩ => exact h_rhs1 _ _)
  rw [el, er]

end Cert.KernelIdeal.Bridge

end
-- ==== Proof.PayMuvar.lean ====
import proofs.«112347_g2765958939317_cont_9to1_237_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Bridge

open Cert.KernelIdeal Cert.KernelIdeal.Gen Idealize.ShloMosaic Idealize.ShloMosaic.ValueIdx Idealize.SL.Sem

/-! # One strip of adj · H read at an index, and its two halves

The second payload of the encoder body is a plain [512,4096] × [4096,256] product into the zero
accumulator; the stored values are its left half (columns 0 … 127) and its right half (columns
128 … 255). At the extended reals each entry is the finite sum of the products along the contracted
axis, and a half reads the product at the column shifted by the half's offset. -/

/-- Row coordinate of the left operand's index: the result's row. -/
theorem m_lhs0 (j : S512x256.Idx) (q : dot_S512x4096_S4096x256_S512x256_1_0_0_1_n_n.contr.Idx) :
    (dot_S512x4096_S4096x256_S512x256_1_0_0_1_n_n.lhsIdx j q 0).val = (j 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
/-- Column coordinate of the left operand's index: the contraction position. -/
theorem m_lhs1 (j : S512x256.Idx) (q : dot_S512x4096_S4096x256_S512x256_1_0_0_1_n_n.contr.Idx) :
    (dot_S512x4096_S4096x256_S512x256_1_0_0_1_n_n.lhsIdx j q 1).val = (q ⟨0, by decide⟩).val :=
  dot_S512x4096_S4096x256_S512x256_1_0_0_1_n_n.lhsIdx_val_of_single rfl j q
/-- Contracted coordinate of the right operand's index: the contraction position. -/
theorem m_rhs0 (j : S512x256.Idx) (q : dot_S512x4096_S4096x256_S512x256_1_0_0_1_n_n.contr.Idx) :
    (dot_S512x4096_S4096x256_S512x256_1_0_0_1_n_n.rhsIdx j q 0).val = (q ⟨0, by decide⟩).val :=
  dot_S512x4096_S4096x256_S512x256_1_0_0_1_n_n.rhsIdx_val_of_single rfl j q
/-- Free coordinate of the right operand's index: the result's column. -/
theorem m_rhs1 (j : S512x256.Idx) (q : dot_S512x4096_S4096x256_S512x256_1_0_0_1_n_n.contr.Idx) :
    (dot_S512x4096_S4096x256_S512x256_1_0_0_1_n_n.rhsIdx j q 1).val = (j 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- Entry (p, c) of x · h is the sum over k of x[p,k] * h[k,c]. -/
theorem pay2_apply (x : FVec Ideal S512x4096 .f32) (h : FVec Ideal S4096x256 .f32) (p : Fin 512) (c : Fin 256) :
    k0_pay2 (F := Ideal) x h (ix2 p c) = ∑ k : Fin 4096, x (ix2 p k) * h (ix2 k c) := by
  unfold k0_pay2
  simp only [matmul]
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p c) ((contrEquiv1 dot_S512x4096_S4096x256_S512x256_1_0_0_1_n_n 4096 rfl rfl).symm k) = ix2 p k := funext fun a => Fin.ext (by
    match a with
    | ⟨0, _⟩ => exact m_lhs0 _ _
    | ⟨1, _⟩ => exact (m_lhs1 _ _).trans hk)
  have er : dot_S512x4096_S4096x256_S512x256_1_0_0_1_n_n.rhsIdx (ix2 p c) ((contrEquiv1 dot_S512x4096_S4096x256_S512x256_1_0_0_1_n_n 4096 rfl rfl).symm k) = ix2 k c := funext fun a => Fin.ext (by
    match a with
    | ⟨0, _⟩ => exact (m_rhs0 _ _).trans hk
    | ⟨1, _⟩ => exact m_rhs1 _ _)
  rw [el, er]

/-- The left half: entry (p, q) of the first 128 columns is the product's entry (p, q). -/
theorem pay3_apply (x : FVec Ideal S512x4096 .f32) (h : FVec Ideal S4096x256 .f32) (p : Fin 512) (q : Fin 128) :
    k0_pay3 (F := Ideal) x h (ix2 p q) = ∑ k : Fin 4096, x (ix2 p k) * h (ix2 k (⟨q.val, by omega⟩ : Fin 256)) := by
  unfold k0_pay3
  have key : extractStridedSlice S512x128 ![0, 0] (k0_pay2 (F := Ideal) x h) Gen.slices_S512x256_o0_0_S512x128 (ix2 p q)
      = k0_pay2 (F := Ideal) x h (ix2 p (⟨q.val, by omega⟩ : Fin 256)) :=
    extractStridedSlice_apply (s := S512x256) (t := S512x128) ![0, 0] (k0_pay2 (F := Ideal) x h)
      Gen.slices_S512x256_o0_0_S512x128 (ix2 p q) (ix2 p (⟨q.val, by omega⟩ : Fin 256)) (fun a => by
        match a with
        | ⟨0, _⟩ => show p.val = 0 + p.val; omega
        | ⟨1, _⟩ => show q.val = 0 + q.val; omega)
  exact key.trans (pay2_apply x h p _)

/-- The right half: entry (p, q) of the last 128 columns is the product's entry (p, q + 128). -/
theorem pay4_apply (x : FVec Ideal S512x4096 .f32) (h : FVec Ideal S4096x256 .f32) (p : Fin 512) (q : Fin 128) :
    k0_pay4 (F := Ideal) x h (ix2 p q) = ∑ k : Fin 4096, x (ix2 p k) * h (ix2 k (⟨q.val + 128, by omega⟩ : Fin 256)) := by
  unfold k0_pay4
  have key : extractStridedSlice S512x128 ![0, 128] (k0_pay2 (F := Ideal) x h) Gen.slices_S512x256_o0_128_S512x128 (ix2 p q)
      = k0_pay2 (F := Ideal) x h (ix2 p (⟨q.val + 128, by omega⟩ : Fin 256)) :=
    extractStridedSlice_apply (s := S512x256) (t := S512x128) ![0, 128] (k0_pay2 (F := Ideal) x h)
      Gen.slices_S512x256_o0_128_S512x128 (ix2 p q) (ix2 p (⟨q.val + 128, by omega⟩ : Fin 256)) (fun a => by
        match a with
        | ⟨0, _⟩ => show p.val = 0 + p.val; omega
        | ⟨1, _⟩ => show q.val + 128 = 128 + q.val; omega)
  exact key.trans (pay2_apply x h p _)

end Cert.KernelIdeal.Bridge

end
-- ==== Proof.KIFinal0.lean ====
import proofs.«112347_g2765958939317_cont_9to1_237_2_alg».proof.Proof.KIRegion0
import proofs.«112347_g2765958939317_cont_9to1_237_2_alg».proof.Proof.PayH
import proofs.«112347_g2765958939317_cont_9to1_237_2_alg».proof.Proof.PayMuvar
import Idealize.ShloMosaic.Lib.Pipeline.Value
import Idealize.ShloMosaic.Lib.ValueIdx

set_option maxRecDepth 16384

noncomputable section

open scoped BigOperators

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The encoder's two output arrays after all write-backs, entry by entry

The encoder region keeps H = z · wcat in its scratch from the first grid point on, and at grid point t
writes rows 512 t … 512 t + 511 of the left and right halves of adj · H into its two output arrays.
The eight strips tile the 4096 rows, so after the region the first output array holds, at (i, q), the
entry (i, q) of adj · H and the second the entry (i, q + 128). -/

/-- Entry (k, j) of a product z · w of a [4096,256] and a [256,256] matrix. -/
def prodAt (z : (⟨2, ![4096, 256]⟩ : Shape).Idx → EReal) (w : (⟨2, ![256, 256]⟩ : Shape).Idx → EReal) (k : Fin 4096) (j : Fin 256) : EReal :=
  ∑ d : Fin 256, z (ix2 k d) * w (ix2 d j)

/-- Entry (i, j) of a product adj · h of a [4096,4096] matrix and a [4096,256] matrix given by its entries. -/
def propAt (adj : (⟨2, ![4096, 4096]⟩ : Shape).Idx → EReal) (h : Fin 4096 → Fin 256 → EReal) (i : Fin 4096) (j : Fin 256) : EReal :=
  ∑ k : Fin 4096, adj (ix2 i k) * h k j

/-- Entry (k, j) of H = z · wcat, from the arrays as the region finds them. -/
def hArr (c : Dev nD) (k : Fin 4096) (j : Fin 256) : EReal :=
  prodAt (V c main_arg0) (V c main_v0) k j

/-- Entry (i, j) of adj · H. -/
def muvarArr (c : Dev nD) (i : Fin 4096) (j : Fin 256) : EReal :=
  propAt (V c main_arg1) (hArr V c) i j

/-- The zero offsets of a whole-buffer access, as a constant function. -/
theorem zero_off2 : (![0, 0] : Fin 2 → Nat) = fun _ => 0 := funext fun a => by fin_cases a <;> rfl

/-- The printed index maps over the eight grid points: the strip windows' block row is the point's
    number and their block column 0; the two resident windows' block is always (0, 0). -/
theorem enc_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## What the body leaves, at an index, over plain vectors -/

/-- The scratch after the first point: the product of the two resident blocks. -/
theorem hval_apply (z : Vec Ideal S4096x256 .f32) (w : Vec Ideal S256x256 .f32) (k : Fin 4096) (j : Fin 256) :
    hval z w (ix2 k j) = ∑ d : Fin 256, z (ix2 k d) * w (ix2 d j) := by
  unfold hval
  rw [View.canon_unit_zero zero_off2]
  simp only [View.ld_unit_zero (S := S4096x256) zero_off2, View.ld_unit_zero (S := S256x256) zero_off2]
  exact pay1_apply z w k j

/-- The first output block: the left half of strip · scratch. -/
theorem out0_3_apply (x : Vec Ideal S512x4096 .f32) (h : Vec Ideal S4096x256 .f32) (p : Fin 512) (q : Fin 128) :
    out0_3 x h (ix2 p q) = ∑ k : Fin 4096, x (ix2 p k) * h (ix2 k (⟨q.val, by omega⟩ : Fin 256)) := by
  unfold out0_3
  rw [View.canon_unit_zero zero_off2]
  simp only [View.ld_unit_zero (S := S512x4096) zero_off2, View.ld_unit_zero (S := S4096x256) zero_off2]
  exact pay3_apply x h p q

/-- The second output block: the right half of strip · scratch. -/
theorem out0_4_apply (x : Vec Ideal S512x4096 .f32) (h : Vec Ideal S4096x256 .f32) (p : Fin 512) (q : Fin 128) :
    out0_4 x h (ix2 p q) = ∑ k : Fin 4096, x (ix2 p k) * h (ix2 k (⟨q.val + 128, by omega⟩ : Fin 256)) := by
  unfold out0_4
  rw [View.canon_unit_zero zero_off2]
  simp only [View.ld_unit_zero (S := S512x4096) zero_off2, View.ld_unit_zero (S := S4096x256) zero_off2]
  exact pay4_apply x h p q

/-! ## The input blocks read off their arrays -/

/-- Row p of the strip at point t is row 512 t + p of adj. -/
theorem strip_apply (c : Dev nD) (t : Fin cfg0.N) (p : Fin 512) (k : Fin 4096) (hp : t.val * 512 + p.val < 4096) :
    (iblk0 V c 0 t : Vec Ideal S512x4096 .f32) (ix2 p k)
      = (V c main_arg1 : S4096x4096.Idx → EReal) (ix2 (⟨t.val * 512 + p.val, hp⟩ : Fin 4096) k) := by
  obtain ⟨e0, e1, -⟩ := enc_index_facts t
  show (V c main_arg1 : S4096x4096.Idx → EReal) (((cfg0.win 0).blk t).view.emb (ix2 p k)) = _
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * k.val = k.val; omega

/-- The resident block of z is the whole of z, at every point. -/
theorem zblk_apply (c : Dev nD) (t : Fin cfg0.N) (k : Fin 4096) (d : Fin 256) :
    (iblk0 V c 1 t : Vec Ideal S4096x256 .f32) (ix2 k d) = (V c main_arg0 : S4096x256.Idx → EReal) (ix2 k d) := by
  obtain ⟨-, -, e0, e1, -⟩ := enc_index_facts t
  show (V c main_arg0 : S4096x256.Idx → EReal) (((cfg0.win 1).blk t).view.emb (ix2 k d)) = _
  refine congrArg _ (funext fun a => Fin.ext ?_)
  match a with
  | ⟨0, _⟩ => show win0_1.index t (0 : Fin 2) * 4096 + 1 * k.val = k.val; omega
  | ⟨1, _⟩ => show win0_1.index t (1 : Fin 2) * 256 + 1 * d.val = d.val; omega

/-- The resident block of wcat is the whole of wcat, at every point. -/
theorem wblk_apply (c : Dev nD) (t : Fin cfg0.N) (d : Fin 256) (j : Fin 256) :
    (iblk0 V c 2 t : Vec Ideal S256x256 .f32) (ix2 d j) = (V c main_v0 : S256x256.Idx → EReal) (ix2 d j) := by
  obtain ⟨-, -, -, -, e0, e1, -⟩ := enc_index_facts t
  show (V c main_v0 : S256x256.Idx → EReal) (((cfg0.win 2).blk t).view.emb (ix2 d j)) = _
  refine congrArg _ (funext fun a => Fin.ext ?_)
  match a with
  | ⟨0, _⟩ => show win0_2.index t (0 : Fin 2) * 256 + 1 * d.val = d.val; omega
  | ⟨1, _⟩ => show win0_2.index t (1 : Fin 2) * 256 + 1 * j.val = j.val; omega

/-- The scratch from the first point on is H. -/
theorem hS_apply (c : Dev nD) (k : Fin 4096) (j : Fin 256) : hS V c (ix2 k j) = hArr V c k j := by
  unfold hS
  refine (hval_apply _ _ k j).trans ?_
  unfold hArr prodAt
  exact Finset.sum_congr rfl fun d _ => by rw [zblk_apply V c t0_0 k d, wblk_apply V c t0_0 d j]

/-! ## The whole-array functions, the blocks, the cover -/

/-- Columns 0 … 127 of adj · H as a [4096,128] array. -/
def encLeft (c : Dev nD) : S4096x128.Idx → EReal := fun idx =>
  muvarArr V c ⟨(idx 0).val, idx2_lt0 idx⟩ ⟨(idx 1).val, by have := idx2_lt1 idx; omega⟩
theorem encLeft_apply (c : Dev nD) (i : Fin 4096) (q : Fin 128) :
    encLeft V c (ix2 i q) = muvarArr V c i (⟨q.val, by omega⟩ : Fin 256) := rfl

/-- Columns 128 … 255 of adj · H as a [4096,128] array. -/
def encRight (c : Dev nD) : S4096x128.Idx → EReal := fun idx =>
  muvarArr V c ⟨(idx 0).val, idx2_lt0 idx⟩ ⟨(idx 1).val + 128, by have := idx2_lt1 idx; omega⟩
theorem encRight_apply (c : Dev nD) (i : Fin 4096) (q : Fin 128) :
    encRight V c (ix2 i q) = muvarArr V c i (⟨q.val + 128, by omega⟩ : Fin 256) := rfl

/-- What point t writes back to this output is block t of the whole-array function. -/
theorem flushed3_eq (c : Dev nD) (t : Fin cfg0.N) :
    (dat0 V c).flushed 3 t = ((cfg0.win 3).blk t).view.read (Elt Ideal) (encLeft V c) := by
  show (cfg0.win 3).cut (grid0.coords t) ((dat0 V c).after 3 t) = _
  rw [after0_3]
  funext y
  obtain ⟨p, q, rfl⟩ : ∃ (p : Fin 512) (q : Fin 128), y = ix2 p q := ⟨y 0, y 1, eq_ix2 y⟩
  have ht : t.val < 8 := lt_of_lt_of_eq t.isLt N_0
  have hp : t.val * 512 + p.val < 4096 := by omega
  obtain ⟨-, -, -, -, -, -, e30, e31, e40, e41⟩ := enc_index_facts t
  have e : ((cfg0.win 3).blk t).view.emb (ix2 p q) = ix2 (⟨t.val * 512 + p.val, hp⟩ : Fin 4096) q := by
    funext a; apply Fin.ext
    match a with
    | ⟨0, _⟩ => show win0_3.index t (0 : Fin 2) * 512 + 1 * p.val = t.val * 512 + p.val; omega
    | ⟨1, _⟩ => show win0_3.index t (1 : Fin 2) * 128 + 1 * q.val = q.val; omega
  show out0_3 (iblk0 V c 0 t) (hS V c) (ix2 p q) = encLeft V c (((cfg0.win 3).blk t).view.emb (ix2 p q))
  rw [e, encLeft_apply]
  refine (out0_3_apply _ _ p q).trans ?_
  unfold muvarArr propAt
  exact Finset.sum_congr rfl fun k _ => by rw [strip_apply V c t p k hp, hS_apply]

/-- An index of the array is in point t's block iff each coordinate is in the block's range on its axis. -/
theorem mem_blk3 (t : Fin cfg0.N) (i : S4096x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v1_0).slice (win0_3.rect t)).set ↔ _
  rw [View.set_slice_whole, Rect.mem_set_unit]
  exact Iff.rfl

/-- Row r lies in the block of point r / 512: the eight strips tile the array. -/
theorem cover3 (i : S4096x128.Idx) :
    ∃ t : Fin cfg0.N, (cfg0.win 3).flush t = true ∧ i ∈ ((cfg0.win 3).blk t).view.set := by
  have hi0 : (i 0).val < 4096 := (i 0).isLt
  have hi1 : (i 1).val < 128 := (i 1).isLt
  have hN : grid0.N = 8 := N_0
  let t : Fin cfg0.N := ⟨(i 0).val / 512, lt_of_lt_of_eq (by omega : (i 0).val / 512 < 8) hN.symm⟩
  have htv : t.val = (i 0).val / 512 := rfl
  obtain ⟨-, -, -, -, -, -, e30, e31, e40, e41⟩ := enc_index_facts t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- The array after the region's write-backs is the whole-array function. -/
theorem final3 (c : Dev nD) : (dat0 V c).arrAt 3 cfg0.N = encLeft V c :=
  (dat0 V c).arrAt_eq_of_cover 3 (encLeft V c) (fun t _ => flushed3_eq V c t) cover3

/-- Read at an index. -/
theorem final3_apply (c : Dev nD) (i : Fin 4096) (q : Fin 128) :
    ((dat0 (F := Ideal) V c).arrAt 3 cfg0.N : S4096x128.Idx → EReal) (ix2 i q) = muvarArr V c i (⟨q.val, by omega⟩ : Fin 256) :=
  (congrFun (final3 V c) (ix2 i q)).trans (encLeft_apply V c i q)

/-- What point t writes back to this output is block t of the whole-array function. -/
theorem flushed4_eq (c : Dev nD) (t : Fin cfg0.N) :
    (dat0 V c).flushed 4 t = ((cfg0.win 4).blk t).view.read (Elt Ideal) (encRight V c) := by
  show (cfg0.win 4).cut (grid0.coords t) ((dat0 V c).after 4 t) = _
  rw [after0_4]
  funext y
  obtain ⟨p, q, rfl⟩ : ∃ (p : Fin 512) (q : Fin 128), y = ix2 p q := ⟨y 0, y 1, eq_ix2 y⟩
  have ht : t.val < 8 := lt_of_lt_of_eq t.isLt N_0
  have hp : t.val * 512 + p.val < 4096 := by omega
  obtain ⟨-, -, -, -, -, -, e30, e31, e40, e41⟩ := enc_index_facts t
  have e : ((cfg0.win 4).blk t).view.emb (ix2 p q) = ix2 (⟨t.val * 512 + p.val, hp⟩ : Fin 4096) q := by
    funext a; apply Fin.ext
    match a with
    | ⟨0, _⟩ => show win0_4.index t (0 : Fin 2) * 512 + 1 * p.val = t.val * 512 + p.val; omega
    | ⟨1, _⟩ => show win0_4.index t (1 : Fin 2) * 128 + 1 * q.val = q.val; omega
  show out0_4 (iblk0 V c 0 t) (hS V c) (ix2 p q) = encRight V c (((cfg0.win 4).blk t).view.emb (ix2 p q))
  rw [e, encRight_apply]
  refine (out0_4_apply _ _ p q).trans ?_
  unfold muvarArr propAt
  exact Finset.sum_congr rfl fun k _ => by rw [strip_apply V c t p k hp, hS_apply]

/-- An index of the array is in point t's block iff each coordinate is in the block's range on its axis. -/
theorem mem_blk4 (t : Fin cfg0.N) (i : S4096x128.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v1_1).slice (win0_4.rect t)).set ↔ _
  rw [View.set_slice_whole, Rect.mem_set_unit]
  exact Iff.rfl

/-- Row r lies in the block of point r / 512: the eight strips tile the array. -/
theorem cover4 (i : S4096x128.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  have hN : grid0.N = 8 := N_0
  let t : Fin cfg0.N := ⟨(i 0).val / 512, lt_of_lt_of_eq (by omega : (i 0).val / 512 < 8) hN.symm⟩
  have htv : t.val = (i 0).val / 512 := rfl
  obtain ⟨-, -, -, -, -, -, e30, e31, e40, e41⟩ := enc_index_facts t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- The array after the region's write-backs is the whole-array function. -/
theorem final4 (c : Dev nD) : (dat0 V c).arrAt 4 cfg0.N = encRight V c :=
  (dat0 V c).arrAt_eq_of_cover 4 (encRight V c) (fun t _ => flushed4_eq V c t) cover4

/-- Read at an index. -/
theorem final4_apply (c : Dev nD) (i : Fin 4096) (q : Fin 128) :
    ((dat0 (F := Ideal) V c).arrAt 4 cfg0.N : S4096x128.Idx → EReal) (ix2 i q) = muvarArr V c i (⟨q.val + 128, by omega⟩ : Fin 256) :=
  (congrFun (final4 V c) (ix2 i q)).trans (encRight_apply V c i q)

end Cert.KernelIdeal.Bridge

end
-- ==== Proof.PayRecon.lean ====
import proofs.«112347_g2765958939317_cont_9to1_237_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Bridge

open Cert.KernelIdeal Cert.KernelIdeal.Gen Idealize.ShloMosaic Idealize.ShloMosaic.ValueIdx Idealize.SL.Sem

/-! # One strip of mu · muᵀ read at an index

The decoder body's payload is a [512,128] × [4096,128] product contracting the second axis of both
operands, into the zero accumulator. At the extended reals its entry (p, j) is the finite sum over d
of a[p,d] * b[j,d]: the inner product of row p of the strip with row j of the whole matrix. -/

/-- Row coordinate of the left operand's index: the result's row. -/
theorem r_lhs0 (j : S512x4096.Idx) (q : dot_S512x128_S4096x128_S512x4096_1_1_0_0_n_n.contr.Idx) :
    (dot_S512x128_S4096x128_S512x4096_1_1_0_0_n_n.lhsIdx j q 0).val = (j 0).val := by
  unfold DotDims.lhsIdx
  rw [dif_neg (show ¬(0 : Fin S512x128.rank) ∈ dot_S512x128_S4096x128_S512x4096_1_1_0_0_n_n.lhsBatch by decide), dif_pos (show (0 : Fin S512x128.rank) ∈ dot_S512x128_S4096x128_S512x4096_1_1_0_0_n_n.lhsNonContracting by decide)]
  rfl
/-- Column coordinate of the left operand's index: the contraction position. -/
theorem r_lhs1 (j : S512x4096.Idx) (q : dot_S512x128_S4096x128_S512x4096_1_1_0_0_n_n.contr.Idx) :
    (dot_S512x128_S4096x128_S512x4096_1_1_0_0_n_n.lhsIdx j q 1).val = (q ⟨0, by decide⟩).val :=
  dot_S512x128_S4096x128_S512x4096_1_1_0_0_n_n.lhsIdx_val_of_single rfl j q
/-- Contracted coordinate of the right operand's index: the contraction position. -/
theorem r_rhs1 (j : S512x4096.Idx) (q : dot_S512x128_S4096x128_S512x4096_1_1_0_0_n_n.contr.Idx) :
    (dot_S512x128_S4096x128_S512x4096_1_1_0_0_n_n.rhsIdx j q 1).val = (q ⟨0, by decide⟩).val :=
  dot_S512x128_S4096x128_S512x4096_1_1_0_0_n_n.rhsIdx_val_of_single rfl j q
/-- Free coordinate of the right operand's index: the result's column. -/
theorem r_rhs0 (j : S512x4096.Idx) (q : dot_S512x128_S4096x128_S512x4096_1_1_0_0_n_n.contr.Idx) :
    (dot_S512x128_S4096x128_S512x4096_1_1_0_0_n_n.rhsIdx j q 0).val = (j 1).val := by
  unfold DotDims.rhsIdx
  rw [dif_neg (show ¬(0 : Fin S4096x128.rank) ∈ dot_S512x128_S4096x128_S512x4096_1_1_0_0_n_n.rhsBatch by decide), dif_pos (show (0 : Fin S4096x128.rank) ∈ dot_S512x128_S4096x128_S512x4096_1_1_0_0_n_n.rhsNonContracting by decide)]
  rfl

/-- Entry (p, j) of a · bᵀ is the sum over d of a[p,d] * b[j,d]. -/
theorem k1_pay1_apply (a : FVec Ideal S512x128 .f32) (b : FVec Ideal S4096x128 .f32) (p : Fin 512) (j : Fin 4096) :
    k1_pay1 (F := Ideal) a b (ix2 p j) = ∑ d : Fin 128, a (ix2 p d) * b (ix2 j d) := by
  unfold k1_pay1
  simp only [shapeCast_self, matmul]
  rw [Ideal.matmul_constant_zero_apply, ← Equiv.sum_comp (contrEquiv1 dot_S512x128_S4096x128_S512x4096_1_1_0_0_n_n 128 rfl rfl).symm]
  refine Finset.sum_congr rfl fun d _ => ?_
  have hd := contrEquiv1_symm_val dot_S512x128_S4096x128_S512x4096_1_1_0_0_n_n 128 rfl rfl d
  have el : dot_S512x128_S4096x128_S512x4096_1_1_0_0_n_n.lhsIdx (ix2 p j) ((contrEquiv1 dot_S512x128_S4096x128_S512x4096_1_1_0_0_n_n 128 rfl rfl).symm d) = ix2 p d := funext fun c => Fin.ext (by
    match c with
    | ⟨0, _⟩ => exact r_lhs0 _ _
    | ⟨1, _⟩ => exact (r_lhs1 _ _).trans hd)
  have er : dot_S512x128_S4096x128_S512x4096_1_1_0_0_n_n.rhsIdx (ix2 p j) ((contrEquiv1 dot_S512x128_S4096x128_S512x4096_1_1_0_0_n_n 128 rfl rfl).symm d) = ix2 j d := funext fun c => Fin.ext (by
    match c with
    | ⟨0, _⟩ => exact r_rhs0 _ _
    | ⟨1, _⟩ => exact (r_rhs1 _ _).trans hd)
  rw [el, er]

end Cert.KernelIdeal.Bridge

end
-- ==== Proof.KIFinal1.lean ====
import proofs.«112347_g2765958939317_cont_9to1_237_2_alg».proof.Proof.KIRegion1
import proofs.«112347_g2765958939317_cont_9to1_237_2_alg».proof.Proof.PayRecon
import Idealize.ShloMosaic.Lib.Pipeline.Value
import Idealize.ShloMosaic.Lib.ValueIdx

set_option maxRecDepth 16384

noncomputable section

open scoped BigOperators

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The decoder's output array after all write-backs, entry by entry

At grid point t the decoder region writes rows 512 t … 512 t + 511 of mu · muᵀ, computed from its strip
of mu and the whole of mu. The eight strips tile the 4096 rows, so after the region the output array
holds, at (i, j), the inner product of rows i and j of mu. -/

/-- Entry (i, j) of mu · muᵀ for a [4096,128] matrix mu. -/
def gramAt (mu : (⟨2, ![4096, 128]⟩ : Shape).Idx → EReal) (i j : Fin 4096) : EReal :=
  ∑ d : Fin 128, mu (ix2 i d) * mu (ix2 j d)

/-- mu · muᵀ of the array the region finds, as a [4096,4096] array. -/
def reconArr (c : Dev nD) : S4096x4096.Idx → EReal := fun idx =>
  gramAt (V c main_v1_0) ⟨(idx 0).val, idx2_lt0 idx⟩ ⟨(idx 1).val, idx2_lt1 idx⟩
theorem reconArr_apply (c : Dev nD) (i j : Fin 4096) :
    reconArr V c (ix2 i j) = gramAt (V c main_v1_0) i j := rfl

/-- The zero offsets of a whole-buffer access, as a constant function. -/
theorem dec_zero_off2 : (![0, 0] : Fin 2 → Nat) = fun _ => 0 := funext fun a => by fin_cases a <;> rfl

/-- The printed index maps over the eight grid points: the strip windows' block row is the point's
    number and their block column 0; the resident window's block is always (0, 0). -/
theorem dec_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the body leaves in the output block: strip · wholeᵀ. -/
theorem out1_2_apply (a : Vec Ideal S512x128 .f32) (b : Vec Ideal S4096x128 .f32) (p : Fin 512) (j : Fin 4096) :
    out1_2 a b (ix2 p j) = ∑ d : Fin 128, a (ix2 p d) * b (ix2 j d) := by
  unfold out1_2
  rw [View.canon_unit_zero dec_zero_off2]
  simp only [View.ld_unit_zero (S := S512x128) dec_zero_off2, View.ld_unit_zero (S := S4096x128) dec_zero_off2]
  exact k1_pay1_apply a b p j

/-- Row p of the strip at point t is row 512 t + p of mu. -/
theorem mustrip_apply (c : Dev nD) (t : Fin cfg1.N) (p : Fin 512) (d : Fin 128) (hp : t.val * 512 + p.val < 4096) :
    (iblk1 V c 0 t : Vec Ideal S512x128 .f32) (ix2 p d)
      = (V c main_v1_0 : S4096x128.Idx → EReal) (ix2 (⟨t.val * 512 + p.val, hp⟩ : Fin 4096) d) := by
  obtain ⟨e0, e1, -⟩ := dec_index_facts t
  show (V c main_v1_0 : S4096x128.Idx → EReal) (((cfg1.win 0).blk t).view.emb (ix2 p d)) = _
  refine congrArg _ (funext fun a => Fin.ext ?_)
  match a with
  | ⟨0, _⟩ => show win1_0.index t (0 : Fin 2) * 512 + 1 * p.val = t.val * 512 + p.val; omega
  | ⟨1, _⟩ => show win1_0.index t (1 : Fin 2) * 128 + 1 * d.val = d.val; omega

/-- The resident block of mu is the whole of mu, at every point. -/
theorem muall_apply (c : Dev nD) (t : Fin cfg1.N) (j : Fin 4096) (d : Fin 128) :
    (iblk1 V c 1 t : Vec Ideal S4096x128 .f32) (ix2 j d) = (V c main_v1_0 : S4096x128.Idx → EReal) (ix2 j d) := by
  obtain ⟨-, -, e0, e1, -⟩ := dec_index_facts t
  show (V c main_v1_0 : S4096x128.Idx → EReal) (((cfg1.win 1).blk t).view.emb (ix2 j d)) = _
  refine congrArg _ (funext fun a => Fin.ext ?_)
  match a with
  | ⟨0, _⟩ => show win1_1.index t (0 : Fin 2) * 4096 + 1 * j.val = j.val; omega
  | ⟨1, _⟩ => show win1_1.index t (1 : Fin 2) * 128 + 1 * d.val = d.val; omega

/-- What point t writes back is block t of the whole-array function. -/
theorem flushed2_eq (c : Dev nD) (t : Fin cfg1.N) :
    (dat1 V c).flushed 2 t = ((cfg1.win 2).blk t).view.read (Elt Ideal) (reconArr V c) := by
  show (cfg1.win 2).cut (grid1.coords t) ((dat1 V c).after 2 t) = _
  rw [after1_2]
  funext y
  obtain ⟨p, j, rfl⟩ : ∃ (p : Fin 512) (j : Fin 4096), y = ix2 p j := ⟨y 0, y 1, eq_ix2 y⟩
  have ht : t.val < 8 := lt_of_lt_of_eq t.isLt N_1
  have hp : t.val * 512 + p.val < 4096 := by omega
  obtain ⟨-, -, -, -, e20, e21⟩ := dec_index_facts t
  have e : ((cfg1.win 2).blk t).view.emb (ix2 p j) = ix2 (⟨t.val * 512 + p.val, hp⟩ : Fin 4096) j := by
    funext a; apply Fin.ext
    match a with
    | ⟨0, _⟩ => show win1_2.index t (0 : Fin 2) * 512 + 1 * p.val = t.val * 512 + p.val; omega
    | ⟨1, _⟩ => show win1_2.index t (1 : Fin 2) * 4096 + 1 * j.val = j.val; omega
  show out1_2 (iblk1 V c 0 t) (iblk1 V c 1 t) (ix2 p j) = reconArr V c (((cfg1.win 2).blk t).view.emb (ix2 p j))
  rw [e, reconArr_apply]
  refine (out1_2_apply _ _ p j).trans ?_
  unfold gramAt
  exact Finset.sum_congr rfl fun d _ => by rw [mustrip_apply V c t p d hp, muall_apply V c t j d]

/-- An index of the array is in point t's block iff each coordinate is in the block's range on its axis. -/
theorem mem_blk2 (t : Fin cfg1.N) (i : S4096x4096.Idx) :
    i ∈ ((cfg1.win 2).blk t).view.set ↔ ∀ a : Fin 2, win1_2.index t a * S512x4096.size a ≤ (i a).val
      ∧ (i a).val < win1_2.index t a * S512x4096.size a + S512x4096.size a := by
  show i ∈ ((View.whole main_v2).slice (win1_2.rect t)).set ↔ _
  rw [View.set_slice_whole, Rect.mem_set_unit]
  exact Iff.rfl

/-- Row r lies in the block of point r / 512: the eight strips tile the array. -/
theorem cover2 (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  have hN : grid1.N = 8 := N_1
  let t : Fin cfg1.N := ⟨(i 0).val / 512, lt_of_lt_of_eq (by omega : (i 0).val / 512 < 8) hN.symm⟩
  have htv : t.val = (i 0).val / 512 := rfl
  obtain ⟨-, -, -, -, e20, e21⟩ := dec_index_facts t
  refine ⟨t, flush1_2 t, ?_⟩
  rw [mem_blk2]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 4096 ≤ (i 1).val ∧ (i 1).val < win1_2.index t (1 : Fin 2) * 4096 + 4096; omega

/-- The array after the region's write-backs is the whole-array function. -/
theorem final2 (c : Dev nD) : (dat1 V c).arrAt 2 cfg1.N = reconArr V c :=
  (dat1 V c).arrAt_eq_of_cover 2 (reconArr V c) (fun t _ => flushed2_eq V c t) cover2

/-- Read at an index: the inner product of rows i and j of mu. -/
theorem final2_apply (c : Dev nD) (i j : Fin 4096) :
    ((dat1 (F := Ideal) V c).arrAt 2 cfg1.N : S4096x4096.Idx → EReal) (ix2 i j) = gramAt (V c main_v1_0) i j :=
  (congrFun (final2 V c) (ix2 i j)).trans (reconArr_apply V c i j)

end Cert.KernelIdeal.Bridge

end
-- ==== Proof.Spec.lean ====
import Idealize.ShloMosaic.PureOps.Ideal
import Idealize.ShloMosaic.Lib.ValueIdx

noncomputable section

open scoped BigOperators

/-! # The specification: graph convolution and inner-product decoder, entry by entry

Over the extended reals, with every sum a finite sum taken as written:
the encoder's output at (i, q) is the sum over k of adj[i,k] times the sum over d of z[k,d] * w[d,q]
(the matrix adj · (z · w), read without re-association), and the decoder's output at (i, j) is the
inner product of rows i and j of the encoder's mean. -/

namespace Cert.KernelIdeal.Bridge

open Idealize.ShloMosaic Idealize.ShloMosaic.ValueIdx

/-- Entry (i, q) of adj · (z · w). -/
def muSpec (z : (⟨2, ![4096, 256]⟩ : Shape).Idx → EReal) (adj : (⟨2, ![4096, 4096]⟩ : Shape).Idx → EReal)
    (w : (⟨2, ![256, 128]⟩ : Shape).Idx → EReal) (i : Fin 4096) (q : Fin 128) : EReal :=
  ∑ k : Fin 4096, adj (ix2 i k) * ∑ d : Fin 256, z (ix2 k d) * w (ix2 d q)

/-- Entry (i, j) of mu · muᵀ. -/
def recSpec (mu : Fin 4096 → Fin 128 → EReal) (i j : Fin 4096) : EReal :=
  ∑ d : Fin 128, mu i d * mu j d

end Cert.KernelIdeal.Bridge

end
-- ==== Proof.KIFinalSpec.lean ====
import proofs.«112347_g2765958939317_cont_9to1_237_2_alg».proof.Proof.KIFinal0
import proofs.«112347_g2765958939317_cont_9to1_237_2_alg».proof.Proof.KIFinal1
import proofs.«112347_g2765958939317_cont_9to1_237_2_alg».proof.Proof.Spec

set_option maxRecDepth 16384

noncomputable section

open scoped BigOperators

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The output arrays' entries are the specification's

With the concatenated weights read as W2 on columns 0 … 127 and as W3 on columns 128 … 255, the
entries of adj · (z · wcat) on the two halves are the encoder specification with W2, respectively W3;
and the entries of mu · muᵀ are the decoder specification of mu's entries. No sum is re-associated. -/

/-- Columns 0 … 127: the encoder specification with the weights the concatenation reads there. -/
theorem muvarArr_left (c : Dev nD) (w2 : (⟨2, ![256, 128]⟩ : Shape).Idx → EReal)
    (hw : ∀ (d : Fin 256) (q : Fin 128), (V c main_v0 : S256x256.Idx → EReal) (ix2 d (⟨q.val, by omega⟩ : Fin 256)) = w2 (ix2 d q))
    (i : Fin 4096) (q : Fin 128) :
    muvarArr V c i (⟨q.val, by omega⟩ : Fin 256) = muSpec (V c main_arg0) (V c main_arg1) w2 i q := by
  unfold muvarArr propAt hArr prodAt muSpec
  exact Finset.sum_congr rfl fun k _ => congrArg _ (Finset.sum_congr rfl fun d _ => by rw [hw d q])

/-- Columns 128 … 255: the encoder specification with the weights the concatenation reads there. -/
theorem muvarArr_right (c : Dev nD) (w3 : (⟨2, ![256, 128]⟩ : Shape).Idx → EReal)
    (hw : ∀ (d : Fin 256) (q : Fin 128), (V c main_v0 : S256x256.Idx → EReal) (ix2 d (⟨q.val + 128, by omega⟩ : Fin 256)) = w3 (ix2 d q))
    (i : Fin 4096) (q : Fin 128) :
    muvarArr V c i (⟨q.val + 128, by omega⟩ : Fin 256) = muSpec (V c main_arg0) (V c main_arg1) w3 i q := by
  unfold muvarArr propAt hArr prodAt muSpec
  exact Finset.sum_congr rfl fun k _ => congrArg _ (Finset.sum_congr rfl fun d _ => by rw [hw d q])

/-- The inner products of the rows of a matrix whose entries are m are the decoder specification of m. -/
theorem gramAt_eq_recSpec (mu : (⟨2, ![4096, 128]⟩ : Shape).Idx → EReal) (m : Fin 4096 → Fin 128 → EReal)
    (hm : ∀ (i : Fin 4096) (d : Fin 128), mu (ix2 i d) = m i d) (i j : Fin 4096) :
    gramAt mu i j = recSpec m i j := by
  unfold gramAt recSpec
  exact Finset.sum_congr rfl fun d _ => by rw [hm i d, hm j d]

end Cert.KernelIdeal.Bridge

end
-- ==== Proof.Wcat.lean ====
import proofs.«112347_g2765958939317_cont_9to1_237_2_alg».proof.Proof.Gen.KernelIdeal
import Idealize.ShloMosaic.Lib.Pipeline.Value
import Idealize.ShloMosaic.Lib.ValueIdx

noncomputable section

open scoped BigOperators

namespace Cert.KernelIdeal.Bridge

open Cert.KernelIdeal Cert.KernelIdeal.Gen Idealize.ShloMosaic Idealize.ShloMosaic.ValueIdx Idealize.SL.Sem

/-! # The concatenated weights [W2 | W3] read at an index

Joining two [256,128] matrices along the column axis gives a [256,256] matrix whose column c is
column c of the first when c is below 128, and column c - 128 of the second otherwise. -/

/-- A column below 128 reads the first piece at the same position. -/
theorem wcat_left_of (hc : Shape.Concatenates [S256x128, S256x128] S256x256 1)
    (w2 w3 : (⟨S256x128, .f32⟩ : BufTy).Contents (Elt Ideal)) (d : Fin 256) (q : Fin 128) :
    concatenate S256x256 1 [⟨S256x128, w2⟩, ⟨S256x128, w3⟩] hc (ix2 d (⟨q.val, by omega⟩ : Fin 256)) = w2 (ix2 d q) :=
  concatenate_pair_apply_left (t := S256x256) (s₁ := S256x128) (s₂ := S256x128) (1 : Fin S256x256.rank) w2 w3 hc
    (ix2 d (⟨q.val, by omega⟩ : Fin 256)) rfl (ix2 d q) (fun b => by
      match b with
      | ⟨0, _⟩ => rfl
      | ⟨1, _⟩ => rfl)

/-- A column from 128 on reads the second piece 128 columns to the left. -/
theorem wcat_right_of (hc : Shape.Concatenates [S256x128, S256x128] S256x256 1)
    (w2 w3 : (⟨S256x128, .f32⟩ : BufTy).Contents (Elt Ideal)) (d : Fin 256) (q : Fin 128) :
    concatenate S256x256 1 [⟨S256x128, w2⟩, ⟨S256x128, w3⟩] hc (ix2 d (⟨q.val + 128, by omega⟩ : Fin 256)) = w3 (ix2 d q) :=
  concatenate_pair_apply_right (t := S256x256) (s₁ := S256x128) (s₂ := S256x128) (1 : Fin S256x256.rank) w2 w3 hc
    (ix2 d (⟨q.val + 128, by omega⟩ : Fin 256)) rfl rfl (ix2 d q)
    (fun b hb => by
      match b, hb with
      | ⟨0, _⟩, _ => rfl
      | ⟨1, _⟩, hb => exact absurd (Fin.ext rfl) hb)
    (by show q.val + 128 = q.val + 128; rfl)

/-- The same two readings with the side condition the program's main function cites. -/
theorem wcat_left (w2 w3 : (⟨S256x128, .f32⟩ : BufTy).Contents (Elt Ideal)) (d : Fin 256) (q : Fin 128) :
    concatenate S256x256 1 [⟨S256x128, w2⟩, ⟨S256x128, w3⟩] Cert.KernelIdeal.Facts₀.concatenates_S256x128_S256x128_S256x256_d1
      (ix2 d (⟨q.val, by omega⟩ : Fin 256)) = w2 (ix2 d q) :=
  wcat_left_of _ w2 w3 d q

theorem wcat_right (w2 w3 : (⟨S256x128, .f32⟩ : BufTy).Contents (Elt Ideal)) (d : Fin 256) (q : Fin 128) :
    concatenate S256x256 1 [⟨S256x128, w2⟩, ⟨S256x128, w3⟩] Cert.KernelIdeal.Facts₀.concatenates_S256x128_S256x128_S256x256_d1
      (ix2 d (⟨q.val + 128, by omega⟩ : Fin 256)) = w3 (ix2 d q) :=
  wcat_right_of _ w2 w3 d q

end Cert.KernelIdeal.Bridge

end
-- ==== Proof.RefSpec.lean ====
import proofs.«112347_g2765958939317_cont_9to1_237_2_alg».proof.Proof.Gen.ReferenceIdeal.Read
import proofs.«112347_g2765958939317_cont_9to1_237_2_alg».proof.Proof.Spec

noncomputable section

open scoped BigOperators

/-! # The reference program computes the specification

Each of the reference's matrix products, read at an index, is the finite sum over its contracted
axis; its transposition reads the operand at the swapped index. Chaining these readings, the
reference's mean and log-variance at (i, q) are the encoder specification with W2, respectively W3,
and its reconstruction at (i, j) is the inner product of rows i and j of the mean. -/

namespace Cert.KernelIdeal.Bridge

open Cert.ReferenceIdeal Cert.ReferenceIdeal.Read Idealize.ShloMosaic Idealize.ShloMosaic.ValueIdx Idealize.SL.Sem

/-- The reference's mean adj · (z · W2) is the encoder specification with W2. -/
theorem ref_mu (x0 : (⟨S4096x256, .f32⟩ : BufTy).Contents (Elt Ideal)) (x1 : (⟨S4096x4096, .f32⟩ : BufTy).Contents (Elt Ideal)) (x2 : (⟨S256x128, .f32⟩ : BufTy).Contents (Elt Ideal))
    (i : Fin 4096) (q : Fin 128) :
    val_main_v1 (F := Ideal) x0 x1 x2 (ix2 i q) = muSpec x0 x1 x2 i q := by
  rw [val_main_v1_apply]
  unfold muSpec
  refine Finset.sum_congr rfl fun k _ => ?_
  rw [val_main_v0_apply]
  have e1 : lidx_main_v1 (ix2 i q) k = ix2 i k := funext fun a => by
    match a with
    | ⟨0, _⟩ => rfl
    | ⟨1, _⟩ => rfl
  have e2 : ∀ d : Fin 256, lidx_main_v0 (ridx_main_v1 (ix2 i q) k) d = ix2 k d := fun d => funext fun a => by
    match a with
    | ⟨0, _⟩ => rfl
    | ⟨1, _⟩ => rfl
  have e3 : ∀ d : Fin 256, ridx_main_v0 (ridx_main_v1 (ix2 i q) k) d = ix2 d q := fun d => funext fun a => by
    match a with
    | ⟨0, _⟩ => rfl
    | ⟨1, _⟩ => rfl
  rw [e1]
  exact congrArg (x1 (ix2 i k) * ·) (Finset.sum_congr rfl fun d _ => by rw [e2 d, e3 d])

/-- The reference's log-variance adj · (z · W3) is the encoder specification with W3. -/
theorem ref_lv (x0 : (⟨S4096x256, .f32⟩ : BufTy).Contents (Elt Ideal)) (x1 : (⟨S4096x4096, .f32⟩ : BufTy).Contents (Elt Ideal)) (x3 : (⟨S256x128, .f32⟩ : BufTy).Contents (Elt Ideal))
    (i : Fin 4096) (q : Fin 128) :
    val_main_v3 (F := Ideal) x0 x1 x3 (ix2 i q) = muSpec x0 x1 x3 i q := by
  rw [val_main_v3_apply]
  unfold muSpec
  refine Finset.sum_congr rfl fun k _ => ?_
  rw [val_main_v2_apply]
  have e1 : lidx_main_v3 (ix2 i q) k = ix2 i k := funext fun a => by
    match a with
    | ⟨0, _⟩ => rfl
    | ⟨1, _⟩ => rfl
  have e2 : ∀ d : Fin 256, lidx_main_v2 (ridx_main_v3 (ix2 i q) k) d = ix2 k d := fun d => funext fun a => by
    match a with
    | ⟨0, _⟩ => rfl
    | ⟨1, _⟩ => rfl
  have e3 : ∀ d : Fin 256, ridx_main_v2 (ridx_main_v3 (ix2 i q) k) d = ix2 d q := fun d => funext fun a => by
    match a with
    | ⟨0, _⟩ => rfl
    | ⟨1, _⟩ => rfl
  rw [e1]
  exact congrArg (x1 (ix2 i k) * ·) (Finset.sum_congr rfl fun d _ => by rw [e2 d, e3 d])

/-- The reference's reconstruction mu · muᵀ is the decoder specification of the mean. -/
theorem ref_rec (x0 : (⟨S4096x256, .f32⟩ : BufTy).Contents (Elt Ideal)) (x1 : (⟨S4096x4096, .f32⟩ : BufTy).Contents (Elt Ideal)) (x2 : (⟨S256x128, .f32⟩ : BufTy).Contents (Elt Ideal))
    (i j : Fin 4096) :
    val_main_v5 (F := Ideal) x0 x1 x2 (ix2 i j) = recSpec (muSpec x0 x1 x2) i j := by
  rw [val_main_v5_apply]
  unfold recSpec
  refine Finset.sum_congr rfl fun d _ => ?_
  rw [val_main_v4_apply]
  have e1 : lidx_main_v5 (ix2 i j) d = ix2 i d := funext fun a => by
    match a with
    | ⟨0, _⟩ => rfl
    | ⟨1, _⟩ => rfl
  have e2 : idx_main_v4 (ridx_main_v5 (ix2 i j) d) = ix2 j d := funext fun a => by
    match a with
    | ⟨0, _⟩ => rfl
    | ⟨1, _⟩ => rfl
  rw [e1, e2, ref_mu, ref_mu]

end Cert.KernelIdeal.Bridge

end
-- ==== Proof.KIAlg.lean ====
/-
  The kernel's results are the reference's, entry by entry, over the extended reals. The mean's entry (i, q) is
  the sum over k of adj[i,k] times the sum over d of z[k,d] * wcat[d,q], and column q < 128 of the concatenation is
  column q of the first weight array; the log-variance reads column q + 128, which is column q of the second; the
  reconstruction's entry (i, j) is the inner product of rows i and j of the mean. The reference computes the same
  sums, written in the same order, so no law of arithmetic is used beyond reading each product as its sum.
-/
import proofs.«112347_g2765958939317_cont_9to1_237_2_alg».proof.Defs
import proofs.«112347_g2765958939317_cont_9to1_237_2_alg».proof.Proof.KIRead
import proofs.«112347_g2765958939317_cont_9to1_237_2_alg».proof.Proof.KIFinalSpec
import proofs.«112347_g2765958939317_cont_9to1_237_2_alg».proof.Proof.Wcat
import proofs.«112347_g2765958939317_cont_9to1_237_2_alg».proof.Proof.RefSpec
import proofs.«112347_g2765958939317_cont_9to1_237_2_alg».proof.Proof.Gen.ReferenceIdeal.Run
import proofs.«112347_g2765958939317_cont_9to1_237_2_alg».proof.Proof.Gen.Pre_finite_inputs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Bridge
open scoped BigOperators

variable (m : (ℓ : Loc nD τ sig) → Buf (Elt Ideal) ℓ) (ρ : Dev nD → PrngReg)

/-- The encoder finds the concatenation of the two weight arrays in its third input's array. -/
theorem V1_main_v0 (c : Dev nD) :
    (V1 m c main_v0 : S256x256.Idx → EReal)
      = concatenate S256x256 1 [⟨S256x128, m ((c : Thread nD τ).loc main_arg2)⟩, ⟨S256x128, m ((c : Thread nD τ).loc main_arg3)⟩] Facts₀.concatenates_S256x128_S256x128_S256x256_d1 := by
  dsimp only [V1, W1, hostOps0]; after_results

/-- The mean, entry by entry. -/
theorem kernel_mu (c : Dev nD) (i : Fin 4096) (q : Fin 128) :
    ((dat0 (F := Ideal) (V1 m) c).arrAt 3 cfg0.N : S4096x128.Idx → EReal) (ix2 i q)
      = muSpec (m ((c : Thread nD τ).loc main_arg0)) (m ((c : Thread nD τ).loc main_arg1)) (m ((c : Thread nD τ).loc main_arg2)) i q := by
  refine (final3_apply (V1 m) c i q).trans ?_
  refine (muvarArr_left (V1 m) c (m ((c : Thread nD τ).loc main_arg2)) (fun d q => ?_) i q).trans ?_
  · exact (congrFun (V1_main_v0 m c) _).trans (wcat_left _ _ d q)
  · rw [V1_main_arg0, V1_main_arg1]
/-- The log-variance, entry by entry. -/
theorem kernel_lv (c : Dev nD) (i : Fin 4096) (q : Fin 128) :
    ((dat0 (F := Ideal) (V1 m) c).arrAt 4 cfg0.N : S4096x128.Idx → EReal) (ix2 i q)
      = muSpec (m ((c : Thread nD τ).loc main_arg0)) (m ((c : Thread nD τ).loc main_arg1)) (m ((c : Thread nD τ).loc main_arg3)) i q := by
  refine (final4_apply (V1 m) c i q).trans ?_
  refine (muvarArr_right (V1 m) c (m ((c : Thread nD τ).loc main_arg3)) (fun d q => ?_) i q).trans ?_
  · exact (congrFun (V1_main_v0 m c) _).trans (wcat_right _ _ d q)
  · rw [V1_main_arg0, V1_main_arg1]
/-- The reconstruction, entry by entry. -/
theorem kernel_rec (c : Dev nD) (i j : Fin 4096) :
    ((dat1 (F := Ideal) (V2 m) c).arrAt 2 cfg1.N : S4096x4096.Idx → EReal) (ix2 i j)
      = recSpec (muSpec (m ((c : Thread nD τ).loc main_arg0)) (m ((c : Thread nD τ).loc main_arg1)) (m ((c : Thread nD τ).loc main_arg2))) i j := by
  refine (final2_apply (V2 m) c i j).trans ?_
  exact gramAt_eq_recSpec _ _ (fun i d => (congrFun (V2_main_v1_0 m c) (ix2 i d)).trans (kernel_mu m c i d)) i j

/-! ## The kernel's result arrays are the reference's stages -/

theorem mu_eq (c : Dev nD) :
    ((dat0 (F := Ideal) (V1 m) c).arrAt 3 cfg0.N : S4096x128.Idx → EReal)
      = Cert.ReferenceIdeal.Read.val_main_v1 (F := Ideal) (m ((c : Thread nD τ).loc main_arg0)) (m ((c : Thread nD τ).loc main_arg1)) (m ((c : Thread nD τ).loc main_arg2)) := by
  funext idx
  obtain ⟨i, q, rfl⟩ : ∃ (i : Fin 4096) (q : Fin 128), idx = ix2 i q := ⟨idx 0, idx 1, eq_ix2 idx⟩
  exact (kernel_mu m c i q).trans (ref_mu _ _ _ i q).symm
theorem lv_eq (c : Dev nD) :
    ((dat0 (F := Ideal) (V1 m) c).arrAt 4 cfg0.N : S4096x128.Idx → EReal)
      = Cert.ReferenceIdeal.Read.val_main_v3 (F := Ideal) (m ((c : Thread nD τ).loc main_arg0)) (m ((c : Thread nD τ).loc main_arg1)) (m ((c : Thread nD τ).loc main_arg3)) := by
  funext idx
  obtain ⟨i, q, rfl⟩ : ∃ (i : Fin 4096) (q : Fin 128), idx = ix2 i q := ⟨idx 0, idx 1, eq_ix2 idx⟩
  exact (kernel_lv m c i q).trans (ref_lv _ _ _ i q).symm
theorem rec_eq (c : Dev nD) :
    ((dat1 (F := Ideal) (V2 m) c).arrAt 2 cfg1.N : S4096x4096.Idx → EReal)
      = Cert.ReferenceIdeal.Read.val_main_v5 (F := Ideal) (m ((c : Thread nD τ).loc main_arg0)) (m ((c : Thread nD τ).loc main_arg1)) (m ((c : Thread nD τ).loc main_arg2)) := by
  funext idx
  obtain ⟨i, j, rfl⟩ : ∃ (i : Fin 4096) (j : Fin 4096), idx = ix2 i j := ⟨idx 0, idx 1, eq_ix2 idx⟩
  exact (kernel_rec m c i j).trans (ref_rec _ _ _ i j).symm

/-! ## The two programs, run from memories agreeing on the arguments, end with equal results -/

theorem algebraic : Cert.algebraic_KernelIdeal_ReferenceIdeal := by
  intro m ρ m' ρ' _ hagree
  refine ⟨fun c => W3 m c (Proc.devRef .tc main_v2), fun c => W3 m c (Proc.devRef .tc main_v1_0),
    fun c => W3 m c (Proc.devRef .tc main_v1_1), fun c => W3 m c (Proc.devRef .tc main_v1_0), ?_, ?_⟩
  · exact (θ_run defs _ _).mono (fun r h c =>
      ⟨h c _ (mem_uc main_v2 (by decide)), h c _ (mem_uc main_v1_0 (by decide)), h c _ (mem_uc main_v1_1 (by decide)),
       h c _ (mem_uc main_v1_0 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩) (run_all m ρ)
  · refine (θ_run Cert.ReferenceIdeal.defs _ _).mono (fun r h c => ⟨(h c).1.trans ?_, (h c).2.1.trans ?_, (h c).2.2.1.trans ?_, (h c).2.2.2.1.trans ?_, (h c).2.2.2.2⟩)
      (Cert.ReferenceIdeal.Value.run (F := Ideal) m' ρ')
    · rw [(hagree c).1, (hagree c).2.1, (hagree c).2.2.1, Cert.ReferenceIdeal.Read.val_main_v5_eq]
      exact ((W3_main_v2 m c).trans (rec_eq m c)).symm
    · rw [(hagree c).1, (hagree c).2.1, (hagree c).2.2.1, Cert.ReferenceIdeal.Read.val_main_v1_eq]
      exact ((W3_main_v1_0 m c).trans (mu_eq m c)).symm
    · rw [(hagree c).1, (hagree c).2.1, (hagree c).2.2.2, Cert.ReferenceIdeal.Read.val_main_v3_eq]
      exact ((W3_main_v1_1 m c).trans (lv_eq m c)).symm
    · rw [(hagree c).1, (hagree c).2.1, (hagree c).2.2.1, Cert.ReferenceIdeal.Read.val_main_v1_eq]
      exact ((W3_main_v1_0 m c).trans (mu_eq m c)).symm

end Cert.KernelIdeal.Hand

end
-- ==== Proof.lean ====
/-
  The five claims. The word-level program and its idealization are the same text read at two float instances, and one
  run serves both: @main is a host concatenate followed by two kernel regions, each region a pipeline over eight row
  strips, and the run carries "every unscoped buffer at named contents" from boundary to boundary. The frames read the
  argument arrays off the last boundary; the value claim reads the three result arrays there and compares them, entry
  by entry, with the reference's stages. The idealization rewrote nothing, so the preservation claim is trivial.
-/
import proofs.«112347_g2765958939317_cont_9to1_237_2_alg».proof.Defs
import proofs.«112347_g2765958939317_cont_9to1_237_2_alg».proof.Proof.Gen.Kernel
import proofs.«112347_g2765958939317_cont_9to1_237_2_alg».proof.Proof.Gen.KernelIdeal
import proofs.«112347_g2765958939317_cont_9to1_237_2_alg».proof.Proof.Gen.ReferenceIdeal
import proofs.«112347_g2765958939317_cont_9to1_237_2_alg».proof.Proof.Gen.Pre_finite_inputs
import proofs.«112347_g2765958939317_cont_9to1_237_2_alg».proof.Proof.Gen.ReferenceIdeal.Run
import proofs.«112347_g2765958939317_cont_9to1_237_2_alg».proof.Proof.KRead
import proofs.«112347_g2765958939317_cont_9to1_237_2_alg».proof.Proof.KIRead
import proofs.«112347_g2765958939317_cont_9to1_237_2_alg».proof.Proof.KIAlg

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
/-- The reference is host operations only: its run, with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.KernelIdeal.Hand.algebraic⟩

end Cert.Proof

end
